-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S2x512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64x512 : Shape := ⟨2, ![64, 512]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel

variable [Facts]

def fn {F : FTy → Type} [FloatOps F] (main_arg0 : FVec F S64x512x1024 .f32) (main_arg1 : IVec S64x512 32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  main_v3
-- ==== Kernel.lean ====
abbrev S64x512x1024 : Shape := ⟨3, ![64, 512, 1024]⟩
abbrev S64x512 : Shape := ⟨2, ![64, 512]⟩
abbrev S_ : Shape := ⟨0, ![]⟩
abbrev S64x1x512 : Shape := ⟨3, ![64, 1, 512]⟩
abbrev S2x1x512 : Shape := ⟨3, ![2, 1, 512]⟩
abbrev S2x512x1024 : Shape := ⟨3, ![2, 512, 1024]⟩
abbrev S2x512 : Shape := ⟨2, ![2, 512]⟩
abbrev S1x512x1 : Shape := ⟨3, ![1, 512, 1]⟩
abbrev S2x512x512 : Shape := ⟨3, ![2, 512, 512]⟩

abbrev nBuf : Space → Nat
  | .hbm => 18
  | .vmem => 6
  | .smem => 0
  | _ => 0

abbrev bufTy : (tb : Table) → Fin (tcTables nBuf tb) → BufTy
  | .hbm, ⟨0, _⟩ => ⟨S64x512x1024, .f32⟩
  | .hbm, ⟨1, _⟩ => ⟨S64x512, .i32⟩
  | .hbm, ⟨2, _⟩ => ⟨S_, .i32⟩
  | .hbm, ⟨3, _⟩ => ⟨S64x512, .i32⟩
  | .hbm, ⟨4, _⟩ => ⟨S64x512, .i1⟩
  | .hbm, ⟨5, _⟩ => ⟨S64x512, .i32⟩
  | .hbm, ⟨6, _⟩ => ⟨S_, .i32⟩
  | .hbm, ⟨7, _⟩ => ⟨S_, .i32⟩
  | .hbm, ⟨8, _⟩ => ⟨S64x512, .i32⟩
  | .hbm, ⟨9, _⟩ => ⟨S_, .i32⟩
  | .hbm, ⟨10, _⟩ => ⟨S64x512, .i32⟩
  | .hbm, ⟨11, _⟩ => ⟨S64x512, .i32⟩
  | .hbm, ⟨12, _⟩ => ⟨S_, .i32⟩
  | .hbm, ⟨13, _⟩ => ⟨S_, .i32⟩
  | .hbm, ⟨14, _⟩ => ⟨S64x512, .i32⟩
  | .hbm, ⟨15, _⟩ => ⟨S64x512, .i32⟩
  | .hbm, ⟨16, _⟩ => ⟨S64x1x512, .i32⟩
  | .hbm, ⟨17, _⟩ => ⟨S64x512x1024, .f32⟩
  | .local _ .vmem, ⟨0, _⟩ => ⟨S2x1x512, .i32⟩
  | .local _ .vmem, ⟨1, _⟩ => ⟨S2x1x512, .i32⟩
  | .local _ .vmem, ⟨2, _⟩ => ⟨S2x512x1024, .f32⟩
  | .local _ .vmem, ⟨3, _⟩ => ⟨S2x512x1024, .f32⟩
  | .local _ .vmem, ⟨4, _⟩ => ⟨S2x512x1024, .f32⟩
  | .local _ .vmem, ⟨5, _⟩ => ⟨S2x512x1024, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_c : Ref sig .tc := ⟨.hbm, 6, rfl⟩
abbrev main_call0_call0_v0 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_call1_v0 : Ref sig .tc := ⟨.hbm, 13, rfl⟩
abbrev main_call1_v1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S64x512 : S_.BroadcastsInDim S64x512 (![] : Fin 0 → Fin S64x512.rank)
  natLt_1_32 : 1 < 32
  bcast_S_S_ : S_.BroadcastsInDim S_ (![] : Fin 0 → Fin S_.rank)
  reduceWindows_S64x512_S64x512_w1s1p0_0_w512s1p511_0 : S64x512.ReduceWindows (![1, 512] : Fin 2 → Nat) ![1, 1] ![0, 511] ![0, 0] S64x512
  h_S_ : 0 < S_.numel
  bcast_S64x512_S64x1x512_0_2 : S64x512.BroadcastsInDim S64x1x512 (![0, 2] : Fin 2 → Fin S64x1x512.rank)
  inb_S2x1x512_S2x1x512_0_0_0 : ∀ a, (![0, 0, 0] : Fin 3 → Nat) a + S2x1x512.size a ≤ S2x1x512.size a
  h_S2x1x512 : 0 < S2x1x512.numel
  shapeCasts_S2x1x512_S2x512 : S2x1x512.ShapeCasts S2x512
  inb_S2x512x1024_S2x512x1024_0_0_0 : ∀ a, (![0, 0, 0] : Fin 3 → Nat) a + S2x512x1024.size a ≤ S2x512x1024.size a
  h_S2x512x1024 : 0 < S2x512x1024.numel
  iota_S1x512x1_d1_w32 : S1x512x1.Iotas .tc 32 [1]
  shapeCasts_S2x512_S2x1x512 : S2x512.ShapeCasts S2x1x512
  broadcasts_S2x1x512_S2x512x512 : S2x1x512.Broadcasts S2x512x512
  broadcasts_S1x512x1_S2x512x512 : S1x512x1.Broadcasts S2x512x512
  bitsLt_bf16_f32 : FTy.bits .bf16 < FTy.bits .f32
  dot_S2x512x512_S2x512x1024_S2x512x1024_2_1_1_2_0_0_wf : DotDims.WF S2x512x512 S2x512x1024 S2x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x512.size a ≤ S64x1x512.size a
  hwx0_0 : ∀ i : grid0.Coords, EltTy.bits .i32 = 32 ∨ (Rect.block (s := S64x1x512) S2x1x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x1024.size a ≤ S64x512x1024.size a
  hwx0_1 : ∀ i : grid0.Coords, EltTy.bits .f32 = 32 ∨ (Rect.block (s := S64x512x1024) S2x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x1024.size a ≤ S64x512x1024.size a
  hwx0_2 : ∀ i : grid0.Coords, EltTy.bits .f32 = 32 ∨ (Rect.block (s := S64x512x1024) S2x512x1024.size (cc0_transform_2 i) (hinb0_2 i)).WholeWords (EltTy.packing .f32)

variable [Facts₀]

def dot_S2x512x512_S2x512x1024_S2x512x1024_2_1_1_2_0_0 : DotDims S2x512x512 S2x512x1024 S2x512x1024 where
  lhsContracting := [2]
  rhsContracting := [1]
  lhsNonContracting := [1]
  rhsNonContracting := [2]
  lhsBatch := [0]
  rhsBatch := [0]
  wf := dot_S2x512x512_S2x512x1024_S2x512x1024_2_1_1_2_0_0_wf

abbrev win0_0 : Pipeline.Window sig grid0 :=
  Pipeline.Window.ofSpec (Memref.whole main_v7) S2x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S64x512 : Shape := ⟨2, ![64, 512]⟩
abbrev S_ : Shape := ⟨0, ![]⟩
abbrev S64x512x1 : Shape := ⟨3, ![64, 512, 1]⟩
abbrev S1 : Shape := ⟨1, ![1]⟩
abbrev S1x1x1 : Shape := ⟨3, ![1, 1, 1]⟩
abbrev S64 : Shape := ⟨1, ![64]⟩
abbrev S64x1 : Shape := ⟨2, ![64, 1]⟩
abbrev S512 : Shape := ⟨1, ![512]⟩
abbrev S1x512 : Shape := ⟨2, ![1, 512]⟩

abbrev nBuf : Space → Nat
  | .hbm => 49
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x512, .i32⟩
  | .hbm, ⟨2, _⟩ => ⟨S_, .i32⟩
  | .hbm, ⟨3, _⟩ => ⟨S64x512, .i32⟩
  | .hbm, ⟨4, _⟩ => ⟨S64x512, .i1⟩
  | .hbm, ⟨5, _⟩ => ⟨S_, .i32⟩
  | .hbm, ⟨6, _⟩ => ⟨S_, .i32⟩
  | .hbm, ⟨7, _⟩ => ⟨S64x512, .i32⟩
  | .hbm, ⟨8, _⟩ => ⟨S64x512, .i32⟩
  | .hbm, ⟨9, _⟩ => ⟨S64x512, .i32⟩
  | .hbm, ⟨10, _⟩ => ⟨S64x512, .i32⟩
  | .hbm, ⟨11, _⟩ => ⟨S64x512, .i32⟩
  | .hbm, ⟨12, _⟩ => ⟨S64x512, .i32⟩
  | .hbm, ⟨13, _⟩ => ⟨S64x512x1, .i32⟩
  | .hbm, ⟨14, _⟩ => ⟨S_, .i32⟩
  | .hbm, ⟨15, _⟩ => ⟨S64x512x1, .i32⟩
  | .hbm, ⟨16, _⟩ => ⟨S64x512x1, .i1⟩
  | .hbm, ⟨17, _⟩ => ⟨S_, .i32⟩
  | .hbm, ⟨18, _⟩ => ⟨S64x512x1, .i32⟩
  | .hbm, ⟨19, _⟩ => ⟨S64x512x1, .i32⟩
  | .hbm, ⟨20, _⟩ => ⟨S64x512x1, .i32⟩
  | .hbm, ⟨21, _⟩ => ⟨S1, .i32⟩
  | .hbm, ⟨22, _⟩ => ⟨S_, .i32⟩
  | .hbm, ⟨23, _⟩ => ⟨S64x512x1, .i32⟩
  | .hbm, ⟨24, _⟩ => ⟨S64x512x1, .i1⟩
  | .hbm, ⟨25, _⟩ => ⟨S1x1x1, .i32⟩
  | .hbm, ⟨26, _⟩ => ⟨S64x512x1, .i32⟩
  | .hbm, ⟨27, _⟩ => ⟨S64x512x1, .i1⟩
  | .hbm, ⟨28, _⟩ => ⟨S64x512x1, .i1⟩
  | .hbm, ⟨29, _⟩ => ⟨S_, .i1⟩
  | .hbm, ⟨30, _⟩ => ⟨S64x512, .i1⟩
  | .hbm, ⟨31, _⟩ => ⟨S64x512x1024, .f32⟩
  | .hbm, ⟨32, _⟩ => ⟨S64x512x1024, .i1⟩
  | .hbm, ⟨33, _⟩ => ⟨S_, .f32⟩
  | .hbm, ⟨34, _⟩ => ⟨S64x512x1024, .f32⟩
  | .hbm, ⟨35, _⟩ => ⟨S64x512x1024, .f32⟩
  | .hbm, ⟨36, _⟩ => ⟨S64x512, .i32⟩
  | .hbm, ⟨37, _⟩ => ⟨S_, .i32⟩
  | .hbm, ⟨38, _⟩ => ⟨S64, .i32⟩
  | .hbm, ⟨39, _⟩ => ⟨S64x1, .i32⟩
  | .hbm, ⟨40, _⟩ => ⟨S512, .i32⟩
  | .hbm, ⟨41, _⟩ => ⟨S1x512, .i32⟩
  | .hbm, ⟨42, _⟩ => ⟨S64x512, .i32⟩
  | .hbm, ⟨43, _⟩ => ⟨S64x512, .i32⟩
  | .hbm, ⟨44, _⟩ => ⟨S64x512, .i1⟩
  | .hbm, ⟨45, _⟩ => ⟨S64x512x1, .i1⟩
  | .hbm, ⟨46, _⟩ => ⟨S64x512x1, .f32⟩
  | .hbm, ⟨47, _⟩ => ⟨S64x512x1024, .f32⟩
  | .hbm, ⟨48, _⟩ => ⟨S64x512x1024, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_c_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_call1_v0 : Ref sig .tc := ⟨.hbm, 10, rfl⟩
abbrev main_call1_v1_0 : Ref sig .tc := ⟨.hbm, 11, rfl⟩
abbrev main_v3 : Ref sig .tc := ⟨.hbm, 12, rfl⟩
abbrev main_v4 : Ref sig .tc := ⟨.hbm, 13, rfl⟩
abbrev main_call2_c : Ref sig .tc := ⟨.hbm, 14, rfl⟩
abbrev main_call2_v0 : Ref sig .tc := ⟨.hbm, 15, rfl⟩
abbrev main_call2_v1 : Ref sig .tc := ⟨.hbm, 16, rfl⟩
abbrev main_call2_c_0 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_call2_c_1 : Ref sig .tc := ⟨.hbm, 21, rfl⟩
abbrev main_call2_c_2 : Ref sig .tc := ⟨.hbm, 22, rfl⟩
abbrev main_call2_v5 : Ref sig .tc := ⟨.hbm, 23, rfl⟩
abbrev main_call2_v6 : Ref sig .tc := ⟨.hbm, 24, rfl⟩
abbrev main_call2_v7 : Ref sig .tc := ⟨.hbm, 25, rfl⟩
abbrev main_call2_v8 : Ref sig .tc := ⟨.hbm, 26, rfl⟩
abbrev main_call2_v9 : Ref sig .tc := ⟨.hbm, 27, rfl⟩
abbrev main_call2_v10 : Ref sig .tc := ⟨.hbm, 28, rfl⟩
abbrev main_call2_c_3 : Ref sig .tc := ⟨.hbm, 29, rfl⟩
abbrev main_call2_v11 : Ref sig .tc := ⟨.hbm, 30, rfl⟩
abbrev main_call2_v12 : Ref sig .tc := ⟨.hbm, 31, rfl⟩
abbrev main_call2_v13 : Ref sig .tc := ⟨.hbm, 32, rfl⟩
abbrev main_call2_cst : Ref sig .tc := ⟨.hbm, 33, rfl⟩
abbrev main_call2_v14 : Ref sig .tc := ⟨.hbm, 34, rfl⟩
abbrev main_v5 : Ref sig .tc := ⟨.hbm, 35, rfl⟩
abbrev main_v6 : Ref sig .tc := ⟨.hbm, 36, rfl⟩
abbrev main_c_2 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩

abbrev nD : Nat := 1
abbrev τ : Topo := Topo.v7x

variable {F : FTy → Type} [FloatOps F]

class Facts₀ : Prop where
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S1_S1x1x1_2 : S1.BroadcastsInDim S1x1x1 (![2] : Fin 1 → Fin S1x1x1.rank)
  bcast_S1x1x1_S64x512x1_0_1_2 : S1x1x1.BroadcastsInDim S64x512x1 (![0, 1, 2] : Fin 3 → Fin S64x512x1.rank)
  reducesTo_S64x512x1_S64x512_d2 : S64x512x1.ReducesTo [2] S64x512
  h_S_ : 0 < S_.numel
  bcast_S64x512_S64x512x1024_0_1 : S64x512.BroadcastsInDim S64x512x1024 (![0, 1] : Fin 2 → Fin S64x512x1024.rank)
  bcast_S_S64x512x1024 : S_.BroadcastsInDim S64x512x1024 (![] : Fin 0 → Fin S64x512x1024.rank)
  natLt_1_32 : 1 < 32
  reducesTo_S64x512_S64_d1 : S64x512.ReducesTo [1] S64
  bcast_S64_S64x1_0 : S64.BroadcastsInDim S64x1 (![0] : Fin 1 → Fin S64x1.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S64x1_S64x512_0_1 : S64x1.BroadcastsInDim S64x512 (![0, 1] : Fin 2 → Fin S64x512.rank)
  bcast_S64x512x1_S64x512x1024_0_1_2 : S64x512x1.BroadcastsInDim S64x512x1024 (![0, 1, 2] : Fin 3 → Fin S64x512x1024.rank)
  gather_S64x512x1024_S64x512x1_S64x512x1024_2_1_0_0_1_2_111024_wf : GatherDims.WF S64x512x1024 S64x512x1 S64x512x1024 [2] [1] [0] [1] [0] 2 ![1, 1, 1024]

variable [Facts₀]

def comparator_i32_i32_d1 : BitVec 32 × BitVec 32 → BitVec 32 × BitVec 32 → BitVec 1 :=
  fun l r =>
    let v2 := IntOp.cmpi .slt l.1 r.1
    v2
def gather_S64x512x1024_S64x512x1_S64x512x1024_2_1_0_0_1_2_111024 : GatherDims S64x512x1024 S64x512x1 S64x512x1024 where
  offsetDims := [2]
  collapsedSliceDims := [1]
  operandBatchingDims := [0]
  startIndicesBatchingDims := [0]
  startIndexMap := [1]
  indexVectorDim := 2
  sliceSizes := ![1, 1, 1024]
  wf := gather_S64x512x1024_S64x512x1_S64x512x1024_2_1_0_0_1_2_111024_wf

class Facts : Prop extends Facts₀ where

variable [Facts]
-- ==== Proof.FiniteInput.lean ====
import Mathlib
import proofs.«164245_j738734375311_2_alg».proof.Pre_finite_inputs
import Idealize.ShloMosaic.PureOps.Ideal
import Idealize.ShloMosaic.Lib.ReduceAll
import Idealize.ShloMosaic.Lib.ValueIdx

/-!
# A finite input is an array of real numbers

The precondition computes, over the extended reals, `all (|x| < +∞)`: the absolute value `max x (−x)` of every
entry, compared "ordered less than" against the f32 word `0x7F800000`, the comparison bits reduced by `and` over
all three axes from the constant `1`. If that scalar is `1` then every comparison bit is `1`; the word
`0x7F800000` encodes the top element `⊤`; and `max x (−x) < ⊤` excludes `x = ⊤` as well as `x = ⊥` (where
`−x = ⊤`), so `x` is a real number.
-/

noncomputable section

namespace Cert.FiniteInput

open Idealize.ShloMosaic Idealize.ShloMosaic.ValueIdx

/-- The f32 word of +∞ encodes the top element of the extended reals. -/
theorem ofBits_pos_inf : Ideal.ofBits .f32 0x7F800000#32 = (⊤ : EReal) := by
  simp [Ideal.ofBits, Ideal.ieee]

/-- An "ordered less than" comparison whose bit is `1` is a strict inequality of extended reals. -/
theorem lt_of_cmp_olt (a b : EReal) (h : Ideal.cmp .olt a b = 1#1) : a < b := by
  by_contra hn
  -- were the inequality false the comparison bit would be `0`
  have h0 : Ideal.cmp .olt a b = 0#1 := by
    show BitVec.ofBool (decide (a < b)) = 0#1
    rw [decide_eq_false hn]; rfl
  rw [h0] at h
  exact absurd h (by decide)

/-- An extended real whose absolute value `max x (−x)` is below `⊤` is a real number: at `⊥` the negation is
    `⊤`, and at `⊤` the value itself is. -/
theorem real_of_abs_lt_top (x : EReal) (h : max x (-x) < ⊤) : ∃ r : ℝ, x = (r : EReal) := by
  induction x using EReal.rec with
  | bot => simp at h
  | coe r => exact ⟨r, rfl⟩
  | top => simp at h

/-- If the precondition evaluates to `1` on `x` (at exact arithmetic), every entry of `x` is a real number. -/
theorem real_of_pre [hP : Cert.Pre_finite_inputs.Facts]
    (x : FVec Ideal Cert.Pre_finite_inputs.S64x512x1024 .f32) (ids : IVec Cert.Pre_finite_inputs.S64x512 32)
    (h : Cert.Pre_finite_inputs.fn (F := Ideal) x ids = (fun _ => 1#1)) : ∀ i, ∃ r : ℝ, x i = (r : EReal) := by
  intro i
  -- the scalar shape has exactly one index
  haveI : Subsingleton Cert.Pre_finite_inputs.S_.Idx := ⟨fun a b => funext fun d => d.elim0⟩
  -- the result at its one index is `1`
  have h0 := congrFun h ix0
  dsimp only [Cert.Pre_finite_inputs.fn] at h0
  -- a reduction by `and` over all axes that is `1` met a `1` at every operand index
  have hi := Host.reduce_andi_all _ _ _ _ ix0 h0 i
  -- that bit is the comparison of `|x i|` with the broadcast constant, read at index `i`
  have hc : Ideal.cmp .olt (max (x i) (-(x i))) (Ideal.ofBits .f32 0x7F800000#32) = 1#1 := hi
  rw [ofBits_pos_inf] at hc
  exact real_of_abs_lt_top (x i) (lt_of_cmp_olt _ _ hc)

end Cert.FiniteInput

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.KernelPayload.lean ====
/-
  The kernel body's stored value read at one index.

  The body builds, for its two batch rows, the 512 × 512 matrix of weights W[p, s, k] = 1 when the destination word of source
  row k of batch row p is the row number s, else 0; it multiplies that matrix into the block x of the input and into the
  difference x − x (the low part of the two-term split, which at the extended reals is x − x itself), and adds the two
  products. At the index (p, s, h) the stored value is therefore
      Σ_k W[p, s, k] · x[p, k, h]  +  Σ_k W[p, s, k] · (x[p, k, h] − x[p, k, h]).
-/
import proofs.«164245_j738734375311_2_alg».proof.Proof.Gen.KernelIdeal.Skeleton
import proofs.«164245_j738734375311_2_alg».proof.Proof.LibMatmul
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The weight of source row `k` in destination row `s`: the signed reading of the one-bit comparison "the destination
    word is the row number", widened to 32 bits. -/
def W (d : BitVec 32) (s : Nat) : EReal :=
  FloatOps.sitofp (F := Ideal) .f32 ((IntOp.cmpi .eq d (BitVec.ofNat 32 s)).setWidth 32)

/-- The weight is 1 where the destination word is the row number and 0 elsewhere. -/
theorem W_eq (d : BitVec 32) (s : Nat) : W d s = if d = BitVec.ofNat 32 s then 1 else 0 := by
  unfold W
  by_cases h : d = BitVec.ofNat 32 s
  · rw [if_pos h]
    have : IntOp.cmpi .eq d (BitVec.ofNat 32 s) = 1#1 := by simp [IntOp.cmpi, h]
    rw [this]
    show (((( (1#1 : BitVec 1).setWidth 32).toInt : ℝ)) : EReal) = 1
    have : ((1#1 : BitVec 1).setWidth 32).toInt = 1 := by decide
    rw [this]; norm_num
  · rw [if_neg h]
    have hb : (d == BitVec.ofNat 32 s) = false := by simpa using h
    have : IntOp.cmpi .eq d (BitVec.ofNat 32 s) = 0#1 := by simp [IntOp.cmpi, hb]
    rw [this]
    show (((( (0#1 : BitVec 1).setWidth 32).toInt : ℝ)) : EReal) = 0
    have : ((0#1 : BitVec 1).setWidth 32).toInt = 0 := by decide
    rw [this]; norm_num

/-- The weight matrix at (p, s, k): the comparison of the destination block, re-laid from [2,1,512] to [2,512] and back and
    spread along the row axis, with the row numbers spread along the other two. -/
theorem weights_apply (x0 : Vec Ideal S2x1x512 .i32) (p : Fin 2) (s k : Fin 512) :
    (truncf .bf16 (sitofp .f32 (extui 32 (cmpi .eq
        (broadcastTo S2x512x512 (shapeCast S2x1x512 (shapeCast S2x512 x0 shapeCasts_S2x1x512_S2x512) shapeCasts_S2x512_S2x1x512) broadcasts_S2x1x512_S2x512x512)
        (broadcastTo S2x512x512 (iota .tc S1x512x1 32 [1] iota_S1x512x1_d1_w32) broadcasts_S1x512x1_S2x512x512)) natLt_1_32))
      bitsLt_bf16_f32 : FVec Ideal S2x512x512 .bf16) (ix3 p s k) = W (x0 (ix3 p 0 k)) s.val := by
  rw [truncf_apply, sitofp_apply, extui_apply]
  show FloatOps.sitofp (F := Ideal) .f32 ((IntOp.cmpi .eq _ _).setWidth 32) = _
  rw [shapeCast_shapeCast]
  rw [broadcastTo_apply x0 broadcasts_S2x1x512_S2x512x512 (ix3 p s k) (ix3 p 0 k) (fun a => by
    match a with
    | ⟨0, _⟩ => rfl
    | ⟨1, _⟩ => rfl
    | ⟨2, _⟩ => rfl)]
  rw [broadcastTo_apply (iota .tc S1x512x1 32 [1] iota_S1x512x1_d1_w32) broadcasts_S1x512x1_S2x512x512 (ix3 p s k)
    (ix3 (0 : Fin 1) s (0 : Fin 1)) (fun a => by
    match a with
    | ⟨0, _⟩ => rfl
    | ⟨1, _⟩ => rfl
    | ⟨2, _⟩ => rfl)]
  rw [iota_single_apply]
  rfl

/-- One product of the weight matrix with a block `y`, into the zero accumulator, at (p, s, h): the sum over the source
    rows `k` of the weight times `y[p, k, h]`. -/
theorem product_apply (w : FVec Ideal S2x512x512 .bf16) (y : FVec Ideal S2x512x1024 .bf16) (p : Fin 2) (s : Fin 512) (h : Fin 1024) :
    matmul dot_S2x512x512_S2x512x1024_S2x512x1024_2_1_1_2_0_0 none w y (constant S2x512x1024 .f32 0x00000000#32) (ix3 p s h)
      = ∑ k : Fin 512, w (ix3 p s k) * y (ix3 p k h) := by
  refine Cert.LibMatmul.matmul_zero_sum1 dot_S2x512x512_S2x512x1024_S2x512x1024_2_1_1_2_0_0 none 512 rfl rfl w y (ix3 p s h)
    (fun k => ix3 p s k) (fun k => ix3 p k h) ?_ ?_
  · intro q k hq
    funext a
    apply Fin.ext
    match a with
    | ⟨0, _⟩ => rfl
    | ⟨1, _⟩ => rfl
    | ⟨2, _⟩ =>
      exact (dot_S2x512x512_S2x512x1024_S2x512x1024_2_1_1_2_0_0.lhsIdx_val_of_single (cl := ⟨2, by decide⟩) rfl (ix3 p s h) q).trans hq
  · intro q k hq
    funext a
    apply Fin.ext
    match a with
    | ⟨0, _⟩ => rfl
    | ⟨1, _⟩ =>
      exact (dot_S2x512x512_S2x512x1024_S2x512x1024_2_1_1_2_0_0.rhsIdx_val_of_single (cr := ⟨1, by decide⟩) rfl (ix3 p s h) q).trans hq
    | ⟨2, _⟩ => rfl

/-- THE STORED VALUE at (p, s, h). -/
theorem pay_apply (x0 : Vec Ideal S2x1x512 .i32) (x1 : Vec Ideal S2x512x1024 .f32) (p : Fin 2) (s : Fin 512) (h : Fin 1024) :
    k0_pay1 (F := Ideal) x0 x1 (ix3 p s h)
      = (∑ k : Fin 512, W (x0 (ix3 p 0 k)) s.val * x1 (ix3 p k h))
        + ∑ k : Fin 512, W (x0 (ix3 p 0 k)) s.val * (x1 (ix3 p k h) - x1 (ix3 p k h)) := by
  unfold k0_pay1
  rw [addf_apply, product_apply, product_apply]
  congr 1
  · refine Finset.sum_congr rfl fun k _ => ?_
    rw [weights_apply, truncf_apply]
  · refine Finset.sum_congr rfl fun k _ => ?_
    rw [weights_apply, truncf_apply, subf_apply]

end Cert.KernelIdeal.Payload

end
-- ==== Proof.KernelBlocks.lean ====
/-
  From the blocks to the whole result array.

  Grid point t handles batch rows 2t and 2t+1: it reads block t of the destination array (shape [64,1,512], blocks [2,1,512])
  and of the input (shape [64,512,1024], blocks [2,512,1024]) and writes block t of the result. At the array index (b, s, h)
  the value written is the body's stored value at (b mod 2, s, h) of those blocks, that is
      Σ_k W(d[b,0,k], s) · x[b,k,h]  +  Σ_k W(d[b,0,k], s) · (x[b,k,h] − x[b,k,h]),
  one function `blockSum x d` of the two whole arrays. The 32 blocks tile the 64 batch rows, so after the run the result
  array is `blockSum` of the input and the destination array as the region finds them.
-/
import proofs.«164245_j738734375311_2_alg».proof.Proof.Gen.KernelIdeal.Value
import proofs.«164245_j738734375311_2_alg».proof.Proof.KernelPayload
import Idealize.ShloMosaic.Lib.Pipeline.Value
import Idealize.ShloMosaic.Lib.ValueIdx
import Idealize.ShloMosaic.PureOps.Ideal

noncomputable section

namespace Cert.KernelIdeal.Blocks

open Cert.KernelIdeal Cert.KernelIdeal.Gen Idealize.ShloMosaic Idealize.ShloMosaic.TcCoe Idealize.SL.Sem
open Idealize.ShloMosaic.ValueIdx Cert.KernelIdeal.Payload
open Idealize.ShloMosaic.Pipeline (Dat)

variable (m : (ℓ : Loc nD τ sig) → Buf (Elt Idealize.ShloMosaic.Ideal) ℓ) (ρ : Dev nD → PrngReg)

/-- The result as one function of the input `x` and the destination array `d`: at (b, s, h) the weighted sum of the
    rows of batch row b, plus the weighted sum of the differences x − x. -/
def blockSum (x : S64x512x1024.Idx → EReal) (d : S64x1x512.Idx → BitVec 32) : S64x512x1024.Idx → EReal :=
  fun i => (∑ k : Fin 512, W (d (ix3 (i 0) (0 : Fin 1) k)) (i 1).val * x (ix3 (i 0) k (i 2)))
    + ∑ k : Fin 512, W (d (ix3 (i 0) (0 : Fin 1) k)) (i 1).val * (x (ix3 (i 0) k (i 2)) - x (ix3 (i 0) k (i 2)))

theorem zero_offsets : (![0, 0, 0] : Fin 3 → Nat) = fun _ => 0 := funext fun a => by fin_cases a <;> rfl

/-- The printed index maps over the grid: every window's block index is (t, 0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The destination block of point t at (p, 0, k) is the destination array at (2t + p, 0, k). -/
theorem dest_block (c : Dev nD) (t : Fin cfg0.N) (p : Fin 2) (k : Fin 512) (b : Fin 64) (hb : b.val = 2 * t.val + p.val) :
    iblk m c 0 t (ix3 p (0 : Fin 1) k) = V m c main_v7 (ix3 b (0 : Fin 1) k) := by
  obtain ⟨e0, e1, e2, -⟩ := index_facts t
  show V m c main_v7 (((cfg0.win 0).blk t).view.emb (ix3 p (0 : Fin 1) k)) = V m c main_v7 (ix3 b (0 : Fin 1) k)
  refine congrArg (V m c main_v7) ?_
  funext a; apply Fin.ext
  match a with
  | ⟨0, _⟩ => show win0_0.index t (0 : Fin 3) * 2 + 1 * p.val = b.val; omega
  | ⟨1, _⟩ => show win0_0.index t (1 : Fin 3) * 1 + 1 * 0 = 0; omega
  | ⟨2, _⟩ => show win0_0.index t (2 : Fin 3) * 512 + 1 * k.val = k.val; omega

/-- The input block of point t at (p, k, h) is the input at (2t + p, k, h). -/
theorem input_block (c : Dev nD) (t : Fin cfg0.N) (p : Fin 2) (k : Fin 512) (h : Fin 1024) (b : Fin 64) (hb : b.val = 2 * t.val + p.val) :
    iblk m c 1 t (ix3 p k h) = V m c main_arg0 (ix3 b k h) := by
  obtain ⟨-, -, -, e0, e1, e2, -⟩ := index_facts t
  show V m c main_arg0 (((cfg0.win 1).blk t).view.emb (ix3 p k h)) = V m c main_arg0 (ix3 b k h)
  refine congrArg (V m c main_arg0) ?_
  funext a; apply Fin.ext
  match a with
  | ⟨0, _⟩ => show win0_1.index t (0 : Fin 3) * 2 + 1 * p.val = b.val; omega
  | ⟨1, _⟩ => show win0_1.index t (1 : Fin 3) * 512 + 1 * k.val = k.val; omega
  | ⟨2, _⟩ => show win0_1.index t (2 : Fin 3) * 1024 + 1 * h.val = h.val; omega

/-- The result block of point t at (p, s, h) sits at the array index (2t + p, s, h). -/
theorem result_index (t : Fin cfg0.N) (p : Fin 2) (s : Fin 512) (h : Fin 1024) (b : Fin 64) (hb : b.val = 2 * t.val + p.val) :
    ((cfg0.win 2).blk t).view.emb (ix3 p s h) = ix3 b s h := by
  obtain ⟨-, -, -, -, -, -, e0, e1, e2⟩ := index_facts t
  funext a; apply Fin.ext
  match a with
  | ⟨0, _⟩ => show win0_2.index t (0 : Fin 3) * 2 + 1 * p.val = b.val; omega
  | ⟨1, _⟩ => show win0_2.index t (1 : Fin 3) * 512 + 1 * s.val = s.val; omega
  | ⟨2, _⟩ => show win0_2.index t (2 : Fin 3) * 1024 + 1 * h.val = h.val; omega

/-- WHAT POINT `t` WRITES BACK is block `t` of `blockSum` of the input and the destination array. -/
theorem flushed_eq (c : Dev nD) (t : Fin cfg0.N) :
    (dats m 0 c).flushed 2 t = ((cfg0.win 2).blk t).view.read (Elt Idealize.ShloMosaic.Ideal) (blockSum (V m c main_arg0) (V m c main_v7)) := by
  rw [Value.flushed2]
  unfold out0_2
  rw [View.canon_unit_zero zero_offsets]
  simp only [View.ld_unit_zero (S := S2x1x512) zero_offsets, View.ld_unit_zero (S := S2x512x1024) zero_offsets]
  funext j
  obtain ⟨p, s, h, rfl⟩ : ∃ (p : Fin 2) (s : Fin 512) (h : Fin 1024), j = ix3 p s h := ⟨j 0, j 1, j 2, eq_ix3 j⟩
  have ht : t.val < 32 := t.isLt
  have hp : p.val < 2 := p.isLt
  let b : Fin 64 := ⟨2 * t.val + p.val, by omega⟩
  refine (pay_apply (iblk m c 0 t) (iblk m c 1 t) p s h).trans ?_
  show _ = blockSum (V m c main_arg0) (V m c main_v7) (((cfg0.win 2).blk t).view.emb (ix3 p s h))
  rw [result_index t p s h b rfl]
  simp only [dest_block m c t p _ b rfl, input_block m c t p _ h b rfl]
  rfl

/-- An index of the array is in point `t`'s block iff each coordinate is in the block's range on its axis. -/
theorem mem_block (t : Fin cfg0.N) (i : S64x512x1024.Idx) :
    i ∈ ((cfg0.win 2).blk t).view.set ↔ ∀ a : Fin 3, win0_2.index t a * S2x512x1024.size a ≤ (i a).val ∧ (i a).val < win0_2.index t a * S2x512x1024.size a + S2x512x1024.size a := by
  show i ∈ ((View.whole main_v8).slice (win0_2.rect t)).set ↔ _
  rw [View.set_slice_whole, Rect.mem_set_unit]
  exact Iff.rfl

/-- Every index is in the block of the point that handles its batch row. -/
theorem cover (i : S64x512x1024.Idx) : ∃ t : Fin cfg0.N, (cfg0.win 2).flush t = true ∧ i ∈ ((cfg0.win 2).blk t).view.set := by
  have h0 : (i 0).val < 64 := (i 0).isLt
  have h1 : (i 1).val < 512 := (i 1).isLt
  have h2 : (i 2).val < 1024 := (i 2).isLt
  let t : Fin cfg0.N := ⟨(i 0).val / 2, by show (i 0).val / 2 < 32; omega⟩
  obtain ⟨-, -, -, -, -, -, e0, e1, e2⟩ := index_facts t
  have et : t.val = (i 0).val / 2 := rfl
  refine ⟨t, flush0_2 t, ?_⟩
  rw [mem_block]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- THE RESULT ARRAY after the run. -/
theorem final (c : Dev nD) : (dats m 0 c).arrAt 2 cfg0.N = blockSum (V m c main_arg0) (V m c main_v7) :=
  (dats m 0 c).arrAt_eq_of_cover 2 (blockSum (V m c main_arg0) (V m c main_v7)) (fun t _ => flushed_eq m c t) cover

end Cert.KernelIdeal.Blocks

end
-- ==== Proof.KernelHost.lean ====
/-
  The destination array as the host operations before the kernel compute it.

  From the flag array ids : [64,512] the host computes, per batch row, the running count of valid rows (flag word 1) as a
  padded window sum, subtracts one, replaces the entries of invalid rows by −1 and adds a unit middle axis:
      dest[b, 0, k] = (number of valid rows q ≤ k of batch row b) − 1   if row k is valid,   −1 otherwise.
  `destArray ids` is that composition of operations; `V_dest` says it is what the kernel's first window finds.
-/
import proofs.«164245_j738734375311_2_alg».proof.Proof.Gen.KernelIdeal.Frame
import Idealize.ShloMosaic.Lib.StableHlo.Run
import Idealize.ShloMosaic.PureOps.Ideal

noncomputable section

namespace Cert.KernelIdeal.HostDest

open Cert.KernelIdeal Cert.KernelIdeal.Gen Idealize.ShloMosaic Idealize.ShloMosaic.TcCoe Idealize.SL.Sem Idealize.ShloMosaic.StableHlo

/-- The host operations' composed term for the destination array. -/
def destArray (ids : IVec S64x512 32) : IVec S64x1x512 32 :=
  broadcastInDim S64x1x512 ![0, 2] Gen.bcast_S64x512_S64x1x512_0_2
    (select
      (cmpi CmpIPredicate.eq ids (broadcastInDim S64x512 ![] Gen.bcast_S_S64x512 (constantI S_ 32 1#32)))
      (subi
        (Host.reduceWindow IntOp.addi ![1, 512] ![1, 1] ![0, 511] ![0, 0]
          (extui 32 (cmpi CmpIPredicate.eq ids (broadcastInDim S64x512 ![] Gen.bcast_S_S64x512 (constantI S_ 32 1#32))) Gen.natLt_1_32)
          (broadcastInDim S_ ![] Gen.bcast_S_S_ (constantI S_ 32 0#32))
          Gen.reduceWindows_S64x512_S64x512_w1s1p0_0_w512s1p511_0 Gen.h_S_)
        (broadcastInDim S64x512 ![] Gen.bcast_S_S64x512 (constantI S_ 32 1#32)))
      (broadcastInDim S64x512 ![] Gen.bcast_S_S64x512 (id (constantI S_ 32 4294967295#32))))

variable (m : (ℓ : Loc nD τ sig) → Buf (Elt Idealize.ShloMosaic.Ideal) ℓ)

/-- What the kernel's first window finds in its array: the destination array of the launch's flags. -/
theorem V_dest (c : Dev nD) :
    (V m c main_v7 : S64x1x512.Idx → BitVec 32) = destArray (m ((c : Thread nD τ).loc main_arg1)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  simp only [cast_eq]
  rfl

end Cert.KernelIdeal.HostDest

end
-- ==== Proof.LibStableSortTwo.lean ====
/-
  GENERAL LEMMAS — a stable insertion sort by a two-valued key.

  When "a sorts strictly before b" means "a has the small key and b the large one", the stable sort of a list is its
  small-key elements in their order followed by its large-key elements in their order (`stableSort_two`). For the positions
  `Fin n`: the small-key position i lands at the place rank i = number of small-key positions below i (`sortedFrom_rank`);
  ranks of small-key positions are below their number `count` (`rank_lt_count`), distinct (`rank_injOn`), and every number
  below `count` is one (`exists_rank_eq`).
-/
import Mathlib
import Idealize.ShloMosaic.Lib.SortFacts

namespace Cert.LibStableSortTwo

open Idealize.ShloMosaic

/-! ## A stable insertion sort by a two-valued key -/

section list
variable {ι : Type} (p : ι → Bool) (before : ι → ι → Bool)

/-- An element with the small key is inserted at the front. -/
theorem insertBefore_small (hb : ∀ a b, before a b = (p a && !p b)) (a : ι) (ha : p a = true)
    (l : List ι) : insertBefore before a l = a :: l := by
  cases l with
  | nil => rfl
  | cons b l => unfold insertBefore; simp [hb, ha]

/-- An element with the large key is inserted after the small-key block, before the large-key block. -/
theorem insertBefore_large (hb : ∀ a b, before a b = (p a && !p b)) (a : ι) (ha : p a = false)
    (l1 l2 : List ι) (h1 : ∀ b ∈ l1, p b = true) (h2 : ∀ b ∈ l2, p b = false) :
    insertBefore before a (l1 ++ l2) = l1 ++ a :: l2 := by
  induction l1 with
  | nil =>
    cases l2 with
    | nil => rfl
    | cons b l =>
      have hpb := h2 b (by simp)
      simp [insertBefore, hb, ha, hpb]
  | cons b l ih =>
    have hpb := h1 b (by simp)
    have ih' := ih (fun c hc => h1 c (List.mem_cons_of_mem _ hc))
    simp [insertBefore, hb, ha, hpb]
    exact ih'

/-- The stable sort by a two-valued key: the small-key elements in order, then the others in order. -/
theorem stableSort_two (hb : ∀ a b, before a b = (p a && !p b)) (l : List ι) :
    stableSort before l = l.filter p ++ l.filter (fun a => !p a) := by
  induction l with
  | nil => rfl
  | cons a l ih =>
    show insertBefore before a (stableSort before l) = _
    rw [ih]
    cases ha : p a
    · rw [insertBefore_large p before hb a ha _ _ (by simp) (by simp)]
      simp [List.filter_cons, ha]
    · rw [insertBefore_small p before hb a ha]
      simp [List.filter_cons, ha]

/-- In a strictly increasing list, a small-key element sits, among the small-key elements, at the position
    "number of small-key elements below it". -/
theorem getElem?_filter_of_sorted {α : Type} [LinearOrder α] (p : α → Bool) (l : List α)
    (hl : l.Pairwise (· < ·)) (x : α) (hx : x ∈ l) (hp : p x = true) :
    (l.filter p)[(l.filter (fun y => decide (y < x ∧ p y = true))).length]? = some x := by
  induction l with
  | nil => simp at hx
  | cons a l ih =>
    rw [List.pairwise_cons] at hl
    rcases List.mem_cons.mp hx with rfl | hx'
    · have hnil : (x :: l).filter (fun y => decide (y < x ∧ p y = true)) = [] := by
        rw [List.filter_eq_nil_iff]
        intro y hy
        rcases List.mem_cons.mp hy with rfl | hy'
        · simp
        · have := hl.1 y hy'
          simp [not_lt.mpr this.le]
      rw [hnil]
      simp [List.filter_cons, hp]
    · have hax : a < x := hl.1 x hx'
      have ih' := ih hl.2 hx'
      cases ha : p a
      · simpa [List.filter_cons, ha, hax] using ih'
      · simpa [List.filter_cons, ha, hax] using ih'

end list

/-! ## Positions under the stable sort of `Fin n` by a two-valued key -/

section fin
variable {n : ℕ} (p : Fin n → Bool)

/-- The number of small-key positions strictly below `i`. -/
def rank (i : Fin n) : ℕ := (Finset.univ.filter (fun j : Fin n => j < i ∧ p j = true)).card

/-- The number of small-key positions. -/
def count : ℕ := (Finset.univ.filter (fun j : Fin n => p j = true)).card

theorem rank_eq_length (i : Fin n) :
    rank p i = ((List.finRange n).filter (fun y => decide (y < i ∧ p y = true))).length := rfl

theorem count_eq_length : count p = ((List.finRange n).filter p).length := by
  have : count p = ((List.finRange n).filter (fun y => decide (p y = true))).length := rfl
  rw [this]; congr 1; simp

/-- The stable sort of the positions by a two-valued key: the small-key positions ascending, then the rest. -/
theorem sortPositions_two (before : Fin n → Fin n → Bool) (hb : ∀ a b, before a b = (p a && !p b)) :
    sortPositions n before = (List.finRange n).filter p ++ (List.finRange n).filter (fun a => !p a) :=
  stableSort_two p before hb _

/-- A small-key position `i` is entry `rank p i` of the ascending list of small-key positions. -/
theorem getElem?_rank (i : Fin n) (hp : p i = true) :
    ((List.finRange n).filter p)[rank p i]? = some i := by
  rw [rank_eq_length]
  exact getElem?_filter_of_sorted p (List.finRange n) (List.pairwise_lt_finRange n) i (List.mem_finRange i) hp

theorem rank_lt_count (i : Fin n) (hp : p i = true) : rank p i < count p := by
  rw [count_eq_length]
  obtain ⟨h, _⟩ := List.getElem?_eq_some_iff.mp (getElem?_rank p i hp)
  exact h

theorem count_le : count p ≤ n :=
  (Finset.card_le_univ _).trans_eq (Fintype.card_fin n)

/-- The stable sort puts the small-key position `i` at the place "number of small-key positions below it". -/
theorem sortedFrom_rank (before : Fin n → Fin n → Bool) (hb : ∀ a b, before a b = (p a && !p b))
    (i : Fin n) (hp : p i = true) (h : rank p i < n) : sortedFrom before ⟨rank p i, h⟩ = i := by
  unfold sortedFrom
  rw [List.get_eq_getElem, List.getElem_eq_iff]
  simp only [Fin.coe_cast]
  rw [sortPositions_two p before hb,
    List.getElem?_append_left (by rw [← count_eq_length]; exact rank_lt_count p i hp)]
  exact getElem?_rank p i hp

theorem rank_injOn (i j : Fin n) (hi : p i = true) (hj : p j = true) (h : rank p i = rank p j) : i = j := by
  have h1 := getElem?_rank p i hi
  have h2 := getElem?_rank p j hj
  rw [h] at h1
  exact Option.some.inj (h1.symm.trans h2)

theorem exists_rank_eq (s : ℕ) (hs : s < count p) : ∃ i, p i = true ∧ rank p i = s := by
  rw [count_eq_length] at hs
  have hmem : ((List.finRange n).filter p)[s] ∈ (List.finRange n).filter p := List.getElem_mem hs
  have hp : p ((List.finRange n).filter p)[s] = true := (List.mem_filter.mp hmem).2
  refine ⟨((List.finRange n).filter p)[s], hp, ?_⟩
  obtain ⟨h2, h3⟩ := List.getElem?_eq_some_iff.mp (getElem?_rank p _ hp)
  have hnd : ((List.finRange n).filter p).Nodup := (List.nodup_finRange n).filter _
  exact (hnd.getElem_inj_iff).mp h3

end fin

end Cert.LibStableSortTwo
-- ==== Proof.LibCumsum.lean ====
/-
  GENERAL LEMMAS — an integer cumulative sum written as a padded window reduction, read at an index.

  `Host.reduceWindow IntOp.addi ![n] ![1] ![lo] ![0] x init` with `lo + 1 = n` (a window as wide as the operand, stride one,
  padded `n - 1` low: how a cumulative sum of a rank-1 array is written) is, at index `j`, the sum of `x` over the
  indices `q ≤ j`, plus one copy of the initial value for the start of the fold and one for every padding position
  (`reduceWindow_cumsum_apply_general`: `(n - j) • init ix0 + ∑ q ≤ j, x q`); with the initial value zero it is the sum
  alone (`reduceWindow_cumsum_apply`). `toNat_sum_of_small` reads a sum of 32-bit words as the sum of the numbers when
  that does not wrap. The steps: a left fold of additions is the start plus the sum (`foldl_add_eq`,
  `foldl_finRange_add_eq`); the window positions of a rank-1 window are `Fin n` (`idx1Equiv`); the positions that read
  the operand are the `w` with `lo ≤ j + w`, reading `x (j + w - lo)` (`sum_window_eq`).
-/
import Mathlib
import Idealize.ShloMosaic.PureOps.Contract
import Idealize.ShloMosaic.Lib.ValueIdx

open scoped BigOperators

namespace Idealize.ShloMosaic.HostInt

open Idealize.ShloMosaic Idealize.ShloMosaic.ValueIdx

/-- A left fold of additions is the start plus the sum of the summands. -/
theorem foldl_add_eq {α M : Type*} [AddCommMonoid M] (g : α → M) (l : List α) (v : M) :
    l.foldl (fun r m => r + g m) v = v + (l.map g).sum := by
  induction l generalizing v with
  | nil => simp
  | cons a l ih => simp [ih, add_assoc]

/-- A left fold of additions over all of `Fin N` is the start plus the sum over `Fin N`. -/
theorem foldl_finRange_add_eq {M : Type*} [AddCommMonoid M] {N : ℕ} (g : Fin N → M) (v : M) :
    (List.finRange N).foldl (fun r m => r + g m) v = v + ∑ m, g m := by
  rw [foldl_add_eq, Fin.sum_univ_def]

/-- A rank-1 multi-index is its one coordinate. -/
def idx1Equiv (n : ℕ) : (⟨1, ![n]⟩ : Shape).Idx ≃ Fin n where
  toFun i := i 0
  invFun := ix1
  left_inv i := (eq_ix1 i).symm
  right_inv _ := rfl

/-- The sum over the window positions of a padded cumulative sum: the positions `w` with `lo ≤ j + w` read the operand
    at `j + w - lo`, the others the padding value. -/
theorem sum_window_eq {n lo : ℕ} (hlo : lo + 1 = n) (X : ℕ → BitVec 32) (v : BitVec 32) (j : ℕ) (hj : j < n) :
    ∑ w ∈ Finset.range n, (if lo ≤ j + w then X (j + w - lo) else v)
      = (lo - j) • v + ∑ q ∈ Finset.range (j + 1), X q := by
  rw [Finset.sum_ite, Finset.sum_const, add_comm]
  congr 1
  · congr 1
    have : (Finset.range n).filter (fun w => ¬ lo ≤ j + w) = Finset.range (lo - j) := by
      ext w; simp only [Finset.mem_filter, Finset.mem_range]; omega
    rw [this, Finset.card_range]
  · have : (Finset.range n).filter (fun w => lo ≤ j + w) = Finset.Ico (lo - j) n := by
      ext w; simp only [Finset.mem_filter, Finset.mem_range, Finset.mem_Ico]; omega
    rw [this, Finset.sum_Ico_eq_sum_range]
    have hn : n - (lo - j) = j + 1 := by omega
    rw [hn]
    refine Finset.sum_congr rfl fun k _ => ?_
    congr 1; omega

/-- The padded window sum read at index `j`: one copy of the initial value for the start of the fold and one for each of the
    `lo - j` padding positions, and the operand's elements at the indices up to `j`. -/
theorem reduceWindow_cumsum_apply_general {n lo : ℕ} (hlo : lo + 1 = n) (x : (⟨1, ![n]⟩ : Shape).Idx → BitVec 32) (init : (⟨0, ![]⟩ : Shape).Idx → BitVec 32)
    (h : (⟨1, ![n]⟩ : Shape).ReduceWindows (![n] : Fin 1 → ℕ) ![1] ![lo] ![0] ⟨1, ![n]⟩) (hu : 0 < (⟨0, ![]⟩ : Shape).numel) (j : Fin n) :
    Host.reduceWindow IntOp.addi ![n] ![1] ![lo] ![0] x init h hu (ix1 j)
      = (n - j.val) • init ix0 + ∑ q ∈ (Finset.univ : Finset (Fin n)).filter (fun q => q ≤ j), x (ix1 q) := by
  have hv0 : init (Shape.Idx.first hu) = init ix0 := congrArg init (eq_ix0 _)
  unfold Host.reduceWindow
  simp only [IntOp.addi]
  rw [foldl_finRange_add_eq, hv0]
  generalize init ix0 = v
  let X : ℕ → BitVec 32 := fun k => if hk : k < n then x (ix1 ⟨k, hk⟩) else 0
  let G : Fin n → BitVec 32 := fun w => if lo ≤ j.val + w.val then X (j.val + w.val - lo) else v
  trans v + ∑ m : Fin (Shape.numel ⟨1, ![n]⟩), G (idx1Equiv n ((⟨1, ![n]⟩ : Shape).rowMajor.symm m))
  · congr 1
    refine Finset.sum_congr rfl fun m _ => ?_
    simp only [G, idx1Equiv, Equiv.coe_fn_mk]
    show _ = if lo ≤ j.val + ((⟨1, ![n]⟩ : Shape).rowMajor.symm m 0).val then X (j.val + ((⟨1, ![n]⟩ : Shape).rowMajor.symm m 0).val - lo) else v
    have hwlt : ((⟨1, ![n]⟩ : Shape).rowMajor.symm m 0).val < n := ((⟨1, ![n]⟩ : Shape).rowMajor.symm m 0).isLt
    by_cases hc : lo ≤ j.val + ((⟨1, ![n]⟩ : Shape).rowMajor.symm m 0).val
    · rw [if_pos hc]
      have hk : j.val + ((⟨1, ![n]⟩ : Shape).rowMajor.symm m 0).val - lo < n := by have := j.isLt; omega
      split
      · simp only [X]
        rw [dif_pos hk]
        congr 1
        funext a
        match a with
        | ⟨0, _⟩ =>
          apply Fin.ext
          show j.val * 1 + ((⟨1, ![n]⟩ : Shape).rowMajor.symm m 0).val - lo = j.val + ((⟨1, ![n]⟩ : Shape).rowMajor.symm m 0).val - lo
          omega
      · next hin =>
        exfalso
        apply hin
        intro a
        match a with
        | ⟨0, _⟩ =>
          show lo ≤ j.val * 1 + ((⟨1, ![n]⟩ : Shape).rowMajor.symm m 0).val ∧ j.val * 1 + ((⟨1, ![n]⟩ : Shape).rowMajor.symm m 0).val - lo < n
          omega
    · rw [if_neg hc]
      split
      · next hin =>
        exfalso
        have := (hin 0).1
        apply hc
        change lo ≤ j.val * 1 + ((⟨1, ![n]⟩ : Shape).rowMajor.symm m 0).val at this
        omega
      · rfl
  · rw [show (∑ m : Fin (Shape.numel ⟨1, ![n]⟩), G (idx1Equiv n ((⟨1, ![n]⟩ : Shape).rowMajor.symm m))) = ∑ w : Fin n, G w from
      Fintype.sum_equiv (((⟨1, ![n]⟩ : Shape).rowMajor.symm).trans (idx1Equiv n)) _ G (fun m => rfl)]
    rw [Fin.sum_univ_eq_sum_range (fun w => if lo ≤ j.val + w then X (j.val + w - lo) else v) n]
    rw [sum_window_eq hlo X v j.val j.isLt]
    have hS : ∑ q ∈ (Finset.univ : Finset (Fin n)).filter (fun q => q ≤ j), x (ix1 q) = ∑ q ∈ Finset.range (j.val + 1), X q := by
      rw [Finset.sum_filter]
      have : ∀ q : Fin n, (if q ≤ j then x (ix1 q) else 0) = (fun k : ℕ => if k ≤ j.val then X k else 0) q.val := by
        intro q
        simp only [X, Fin.le_def]
        rw [dif_pos q.isLt]
      rw [Finset.sum_congr rfl (fun q _ => this q), Fin.sum_univ_eq_sum_range (fun k : ℕ => if k ≤ j.val then X k else 0) n,
        ← Finset.sum_filter]
      congr 1
      ext k; simp only [Finset.mem_filter, Finset.mem_range]; have := j.isLt; omega
    rw [hS]
    have hn : n - j.val = (lo - j.val) + 1 := by have := j.isLt; omega
    rw [hn, add_nsmul, one_nsmul]
    abel

/-- The cumulative sum with initial value zero, read at index `j`: the sum of the operand over the indices up to `j`. -/
theorem reduceWindow_cumsum_apply {n lo : ℕ} (hlo : lo + 1 = n) (x : (⟨1, ![n]⟩ : Shape).Idx → BitVec 32) (init : (⟨0, ![]⟩ : Shape).Idx → BitVec 32)
    (h : (⟨1, ![n]⟩ : Shape).ReduceWindows (![n] : Fin 1 → ℕ) ![1] ![lo] ![0] ⟨1, ![n]⟩) (hu : 0 < (⟨0, ![]⟩ : Shape).numel)
    (hinit : init (Shape.Idx.first hu) = 0#32) (j : Fin n) :
    Host.reduceWindow IntOp.addi ![n] ![1] ![lo] ![0] x init h hu (ix1 j)
      = ∑ q ∈ (Finset.univ : Finset (Fin n)).filter (fun q => q ≤ j), x (ix1 q) := by
  have hv0 : init ix0 = 0#32 := by rw [← hinit]; exact congrArg init (eq_ix0 _).symm
  rw [reduceWindow_cumsum_apply_general hlo x init h hu j, hv0]
  have : (0#32 : BitVec 32) = 0 := rfl
  rw [this, smul_zero, zero_add]

/-- A sum of 32-bit words whose numbers add up to less than `2 ^ 32` is, as a number, the sum of the numbers. -/
theorem toNat_sum_of_small {ι : Type*} (s : Finset ι) (f : ι → BitVec 32) (hb : ∑ i ∈ s, (f i).toNat < 2 ^ 32) :
    (∑ i ∈ s, f i).toNat = ∑ i ∈ s, (f i).toNat := by
  classical
  induction s using Finset.induction_on with
  | empty => simp
  | insert a s ha ih =>
    rw [Finset.sum_insert ha] at hb
    rw [Finset.sum_insert ha, Finset.sum_insert ha, BitVec.toNat_add, ih (by omega), Nat.mod_eq_of_lt hb]

end Idealize.ShloMosaic.HostInt
-- ==== Proof.LibCumsum2.lean ====
/-
  GENERAL LEMMAS — sums along the last axis of a rank-2 array of 32-bit words, read at an index, and sums of indicators.

  `Host.reduceWindow IntOp.addi ![1, n] ![1, 1] ![0, lo] ![0, 0] x init` with `lo + 1 = n` (a window one row high and as wide
  as a row, stride one, padded `n - 1` low on the last axis: how a cumulative sum along the last axis of a rank-2 array is
  written) is, at `(b, j)`, the sum of row `b` of `x` over the columns `q ≤ j`, plus one copy of the initial value for the
  start of the fold and one for every padding position (`cumsum2_apply_general`: `(n - j) • init ix0 + ∑ q ≤ j, x (b, q)`);
  with the initial value zero it is the sum alone (`cumsum2_apply`). The window's positions are `(0, w)` with `w < n`;
  position `(0, w)` reads the operand at `(b, j + w - lo)` when `lo ≤ j + w` and the padding otherwise, so the sum over the
  positions is the rank-independent `sum_window_eq`.

  `Host.reduce IntOp.addi x init` over the last axis is, at row `b`, the initial value plus the sum of the row
  (`rowsum_apply_general`), the sum alone when the initial value is zero (`rowsum_apply`): a fold of additions over a finite
  set is the start plus the sum (`fold_addi_eq_sum`), and the indices that drop to `b` are those whose first coordinate is `b`.

  A sum of indicator words `if P i then 1 else 0` is the number of indices where `P` holds, as a word
  (`sum_indicator_eq_card`), and as a number when that count is below `2 ^ 32` (`toNat_sum_indicator`).
-/
import Mathlib
import Idealize.ShloMosaic.PureOps.Contract
import Idealize.ShloMosaic.PureOps.Reduce
import Idealize.ShloMosaic.Lib.ValueIdx
import proofs.«164245_j738734375311_2_alg».proof.Proof.LibCumsum

open scoped BigOperators

namespace Cert.LibCumsum2

open Idealize.ShloMosaic Idealize.ShloMosaic.ValueIdx Idealize.ShloMosaic.HostInt

/-- A sum of indicator words is the number of indices where the predicate holds, as a word. -/
theorem sum_indicator_eq_card {ι : Type*} (s : Finset ι) (P : ι → Prop) [DecidablePred P] :
    (∑ i ∈ s, (if P i then 1#32 else 0#32)) = BitVec.ofNat 32 (s.filter P).card := by
  classical
  induction s using Finset.induction_on with
  | empty => rfl
  | insert a s ha ih =>
    rw [Finset.sum_insert ha, ih, Finset.filter_insert]
    by_cases hp : P a
    · rw [if_pos hp, if_pos hp, Finset.card_insert_of_notMem (fun hm => ha (Finset.mem_filter.1 hm).1),
        BitVec.ofNat_add, add_comm]
    · rw [if_neg hp, if_neg hp]
      exact BitVec.zero_add _

/-- When the count is below `2 ^ 32` the sum of indicator words is, as a number, the count. -/
theorem toNat_sum_indicator {ι : Type*} (s : Finset ι) (P : ι → Prop) [DecidablePred P]
    (hc : (s.filter P).card < 2 ^ 32) :
    (∑ i ∈ s, (if P i then 1#32 else 0#32)).toNat = (s.filter P).card := by
  rw [sum_indicator_eq_card, BitVec.toNat_ofNat, Nat.mod_eq_of_lt hc]

/-- A fold of word additions over a finite set is the start plus the sum. -/
theorem fold_addi_eq_sum {ι : Type*} (S : Finset ι) (v : BitVec 32) (f : ι → BitVec 32) :
    S.fold IntOp.addi v f = v + ∑ i ∈ S, f i := by
  induction S using Finset.cons_induction with
  | empty => simp
  | cons a S ha ih =>
    rw [Finset.fold_cons, Finset.sum_cons, ih]
    show f a + (v + _) = _
    rw [add_left_comm]

/-- Of the two axes of a rank-2 shape, dropping the last keeps the first. -/
theorem kept_last {B n : ℕ} : (⟨2, ![B, n]⟩ : Shape).kept [1] = [0] := by rfl

/-- The sum over the last axis of a rank-2 array, read at row `b`: the initial value plus the sum of the row. -/
theorem rowsum_apply_general {B n : ℕ} (x : (⟨2, ![B, n]⟩ : Shape).Idx → BitVec 32)
    (init : (⟨0, ![]⟩ : Shape).Idx → BitVec 32)
    (hr : (⟨2, ![B, n]⟩ : Shape).ReducesTo [1] ⟨1, ![B]⟩) (hu : 0 < (⟨0, ![]⟩ : Shape).numel) (b : Fin B) :
    Host.reduce IntOp.addi x init hr hu (ix1 b) = init ix0 + ∑ q : Fin n, x (ix2 b q) := by
  have hv0 : init (Shape.Idx.first hu) = init ix0 := congrArg init (eq_ix0 _)
  rw [Host.reduce_eq_fold, fold_addi_eq_sum, hv0]
  congr 1
  have key : ∀ i : (⟨2, ![B, n]⟩ : Shape).Idx, hr.drop i = ix1 b ↔ i 0 = b := by
    intro i
    have h0 : ((hr.drop i 0 : Fin _) : ℕ) = i 0 :=
      Shape.ReducesTo.drop_apply_val_of_eq hr i 0 0 (by rw [kept_last]; simp) (by rfl)
    constructor
    · intro e
      apply Fin.ext
      rw [← h0, e]
      rfl
    · intro e
      funext d
      match d with
      | ⟨0, _⟩ =>
        apply Fin.ext
        show ((hr.drop i 0 : Fin _) : ℕ) = b.val
        rw [h0, e]
  refine Finset.sum_nbij' (fun i => i 1) (fun q => ix2 b q) ?_ ?_ ?_ ?_ ?_
  · intro i _; exact Finset.mem_univ _
  · intro q _; exact Finset.mem_filter.2 ⟨Finset.mem_univ _, (key _).2 rfl⟩
  · intro i hi
    have hb := (key i).1 (Finset.mem_filter.1 hi).2
    rw [← hb]; exact (eq_ix2 i).symm
  · intro q _; rfl
  · intro i hi
    have hb := (key i).1 (Finset.mem_filter.1 hi).2
    rw [← hb]; exact congrArg x (eq_ix2 i)

/-- With initial value zero: the sum of the row. -/
theorem rowsum_apply {B n : ℕ} (x : (⟨2, ![B, n]⟩ : Shape).Idx → BitVec 32)
    (init : (⟨0, ![]⟩ : Shape).Idx → BitVec 32)
    (hr : (⟨2, ![B, n]⟩ : Shape).ReducesTo [1] ⟨1, ![B]⟩) (hu : 0 < (⟨0, ![]⟩ : Shape).numel)
    (hinit : init (Shape.Idx.first hu) = 0#32) (b : Fin B) :
    Host.reduce IntOp.addi x init hr hu (ix1 b) = ∑ q : Fin n, x (ix2 b q) := by
  have hv0 : init ix0 = 0#32 := by rw [← hinit]; exact congrArg init (eq_ix0 _).symm
  rw [rowsum_apply_general x init hr hu b, hv0]
  have : (0#32 : BitVec 32) = 0 := rfl
  rw [this, zero_add]

/-- The padded window sum along the last axis of a rank-2 array, read at `(b, j)`: one copy of the initial value for the
    start of the fold and one for each of the `lo - j` padding positions, and the row's elements at the columns up to `j`. -/
theorem cumsum2_apply_general {B n lo : ℕ} (hlo : lo + 1 = n) (x : (⟨2, ![B, n]⟩ : Shape).Idx → BitVec 32)
    (init : (⟨0, ![]⟩ : Shape).Idx → BitVec 32)
    (h : (⟨2, ![B, n]⟩ : Shape).ReduceWindows (![1, n] : Fin 2 → ℕ) ![1, 1] ![0, lo] ![0, 0] ⟨2, ![B, n]⟩)
    (hu : 0 < (⟨0, ![]⟩ : Shape).numel) (b : Fin B) (j : Fin n) :
    Host.reduceWindow IntOp.addi ![1, n] ![1, 1] ![0, lo] ![0, 0] x init h hu (ix2 b j)
      = (n - j.val) • init ix0 + ∑ q ∈ (Finset.univ : Finset (Fin n)).filter (fun q => q ≤ j), x (ix2 b q) := by
  have hv0 : init (Shape.Idx.first hu) = init ix0 := congrArg init (eq_ix0 _)
  unfold Host.reduceWindow
  simp only [IntOp.addi]
  rw [foldl_finRange_add_eq, hv0]
  generalize init ix0 = v
  let X : ℕ → BitVec 32 := fun k => if hk : k < n then x (ix2 b ⟨k, hk⟩) else 0
  let G : Fin n → BitVec 32 := fun w => if lo ≤ j.val + w.val then X (j.val + w.val - lo) else v
  trans v + ∑ m : Fin (Shape.numel ⟨2, ![1, n]⟩), G ((⟨2, ![1, n]⟩ : Shape).rowMajor.symm m 1)
  · congr 1
    refine Finset.sum_congr rfl fun m _ => ?_
    set i := (⟨2, ![1, n]⟩ : Shape).rowMajor.symm m with hi
    have hw0 : (i 0).val < 1 := idx2_lt0 i
    have hw1 : (i 1).val < n := idx2_lt1 i
    simp only [G]
    by_cases hc : lo ≤ j.val + (i 1).val
    · rw [if_pos hc]
      have hk : j.val + (i 1).val - lo < n := by have := j.isLt; omega
      split
      · simp only [X]
        rw [dif_pos hk]
        congr 1
        funext a
        match a with
        | ⟨0, _⟩ =>
          apply Fin.ext
          show b.val * 1 + (i 0).val - 0 = b.val
          omega
        | ⟨1, _⟩ =>
          apply Fin.ext
          show j.val * 1 + (i 1).val - lo = j.val + (i 1).val - lo
          omega
      · next hin =>
        exfalso
        apply hin
        intro a
        match a with
        | ⟨0, _⟩ =>
          show 0 ≤ b.val * 1 + (i 0).val ∧ b.val * 1 + (i 0).val - 0 < B
          have := b.isLt
          omega
        | ⟨1, _⟩ =>
          show lo ≤ j.val * 1 + (i 1).val ∧ j.val * 1 + (i 1).val - lo < n
          omega
    · rw [if_neg hc]
      split
      · next hin =>
        exfalso
        have := (hin 1).1
        apply hc
        change lo ≤ j.val * 1 + (i 1).val at this
        omega
      · rfl
  · have hre : (∑ m : Fin (Shape.numel ⟨2, ![1, n]⟩), G ((⟨2, ![1, n]⟩ : Shape).rowMajor.symm m 1)) = ∑ w : Fin n, G w := by
      rw [Equiv.sum_comp ((⟨2, ![1, n]⟩ : Shape).rowMajor.symm) (fun i : (⟨2, ![1, n]⟩ : Shape).Idx => G (i 1)), sum_idx2,
        Fin.sum_univ_one]
      exact Finset.sum_congr rfl (fun w _ => rfl)
    rw [hre]
    rw [Fin.sum_univ_eq_sum_range (fun w => if lo ≤ j.val + w then X (j.val + w - lo) else v) n]
    rw [sum_window_eq hlo X v j.val j.isLt]
    have hS : ∑ q ∈ (Finset.univ : Finset (Fin n)).filter (fun q => q ≤ j), x (ix2 b q) = ∑ q ∈ Finset.range (j.val + 1), X q := by
      rw [Finset.sum_filter]
      have : ∀ q : Fin n, (if q ≤ j then x (ix2 b q) else 0) = (fun k : ℕ => if k ≤ j.val then X k else 0) q.val := by
        intro q
        simp only [X, Fin.le_def]
        rw [dif_pos q.isLt]
      rw [Finset.sum_congr rfl (fun q _ => this q), Fin.sum_univ_eq_sum_range (fun k : ℕ => if k ≤ j.val then X k else 0) n,
        ← Finset.sum_filter]
      congr 1
      ext k; simp only [Finset.mem_filter, Finset.mem_range]; have := j.isLt; omega
    rw [hS]
    have hn : n - j.val = (lo - j.val) + 1 := by have := j.isLt; omega
    rw [hn, add_nsmul, one_nsmul]
    abel

/-- The cumulative sum along the last axis with initial value zero, read at `(b, j)`: the sum of row `b` over the columns up to `j`. -/
theorem cumsum2_apply {B n lo : ℕ} (hlo : lo + 1 = n) (x : (⟨2, ![B, n]⟩ : Shape).Idx → BitVec 32)
    (init : (⟨0, ![]⟩ : Shape).Idx → BitVec 32)
    (h : (⟨2, ![B, n]⟩ : Shape).ReduceWindows (![1, n] : Fin 2 → ℕ) ![1, 1] ![0, lo] ![0, 0] ⟨2, ![B, n]⟩)
    (hu : 0 < (⟨0, ![]⟩ : Shape).numel) (hinit : init (Shape.Idx.first hu) = 0#32) (b : Fin B) (j : Fin n) :
    Host.reduceWindow IntOp.addi ![1, n] ![1, 1] ![0, lo] ![0, 0] x init h hu (ix2 b j)
      = ∑ q ∈ (Finset.univ : Finset (Fin n)).filter (fun q => q ≤ j), x (ix2 b q) := by
  have hv0 : init ix0 = 0#32 := by rw [← hinit]; exact congrArg init (eq_ix0 _).symm
  rw [cumsum2_apply_general hlo x init h hu b j, hv0]
  have : (0#32 : BitVec 32) = 0 := rfl
  rw [this, smul_zero, zero_add]

end Cert.LibCumsum2
-- ==== Proof.CompactSpec.lean ====
/-
  Stream compaction of the rows of a matrix, as one function, and the two ways of computing it.

  Fix a batch row with validity flags p : Fin n → Bool and rows x k (extended reals). Row k is valid when p k; its
  rank is the number of valid rows before it, and `count p` is the number of valid rows. The compaction puts the valid
  rows, in order, at the positions 0 … count p − 1 and zeros after them:
      compactRow p x s = Σ_k [p k ∧ rank p k = s] · x k.
  ONE-HOT SUM: with the weight w k = 1 when p k and rank p k = s, else 0, and every x k a real number,
      Σ_k w k · x k + Σ_k w k · (x k − x k) = compactRow p x s      (`onehot_sum`).
  SORTED GATHER: with σ the stable sorting permutation of the keys (0 for valid, 1 for invalid),
      g · [s < count p] = compactRow p x s  whenever g = x (σ s) for s < count p      (`sorted_gather`),
  because the stable sort lists the valid rows first, in order: position s < count p holds the valid row of rank s.
  DESTINATION WORDS: the 32-bit destination word of row k — (number of valid rows up to and including k) − 1 when k is
  valid, else −1 — equals the word of s exactly when k is valid of rank s (`dest_word_eq_iff`).
-/
import Mathlib
import Idealize.ShloMosaic.PureOps.Ideal
import Idealize.ShloMosaic.Lib.ValueIdx
import proofs.«164245_j738734375311_2_alg».proof.Proof.LibStableSortTwo
import proofs.«164245_j738734375311_2_alg».proof.Proof.LibCumsum2

open scoped BigOperators

noncomputable section

namespace Cert.Compact

open Idealize.ShloMosaic Idealize.ShloMosaic.ValueIdx Cert.LibStableSortTwo

/-- Row k of batch row b is valid: its flag word is 1. -/
def valid (ids : (⟨2, ![64, 512]⟩ : Shape).Idx → BitVec 32) (b : Fin 64) (k : Fin 512) : Bool := ids (ix2 b k) == 1#32

/-- "Row k sorts strictly before row k'": k is valid and k' is not (the keys are 0 for valid rows, 1 for the others). -/
def before (ids : (⟨2, ![64, 512]⟩ : Shape).Idx → BitVec 32) (b : Fin 64) : Fin 512 → Fin 512 → Bool :=
  fun k k' => valid ids b k && !valid ids b k'

/-- The stable sorting permutation of batch row b: the source row that lands at position s. -/
def perm (ids : (⟨2, ![64, 512]⟩ : Shape).Idx → BitVec 32) (b : Fin 64) (s : Fin 512) : Fin 512 :=
  sortedFrom (before ids b) s

/-- One batch row's compaction at position s. -/
def compactRow {n : ℕ} (p : Fin n → Bool) (x : Fin n → EReal) (s : ℕ) : EReal :=
  ∑ k : Fin n, if p k = true ∧ rank p k = s then x k else 0

/-- THE SPECIFICATION: the compacted array, index by index. -/
def compact (x : (⟨3, ![64, 512, 1024]⟩ : Shape).Idx → EReal) (ids : (⟨2, ![64, 512]⟩ : Shape).Idx → BitVec 32) :
    (⟨3, ![64, 512, 1024]⟩ : Shape).Idx → EReal :=
  fun i => compactRow (valid ids (i 0)) (fun k => x (ix3 (i 0) k (i 2))) (i 1).val

/-- The one-hot sum with real rows is the compaction. -/
theorem onehot_sum {n : ℕ} (p : Fin n → Bool) (x : Fin n → EReal) (hx : ∀ k, ∃ r : ℝ, x k = (r : EReal)) (s : ℕ)
    (w : Fin n → EReal) (hw : ∀ k, w k = if p k = true ∧ rank p k = s then 1 else 0) :
    (∑ k : Fin n, w k * x k) + ∑ k : Fin n, w k * (x k - x k) = compactRow p x s := by
  have h2 : ∑ k : Fin n, w k * (x k - x k) = 0 := by
    refine Finset.sum_eq_zero fun k _ => ?_
    obtain ⟨r, hr⟩ := hx k
    rw [hr, ← EReal.coe_sub, sub_self, EReal.coe_zero, mul_zero]
  rw [h2, add_zero]
  unfold compactRow
  refine Finset.sum_congr rfl fun k _ => ?_
  rw [hw k]
  split_ifs
  · exact one_mul _
  · exact zero_mul _

/-- The compaction at a position below the count is the row the stable sort puts there; at or above it, zero. -/
theorem compactRow_eq {n : ℕ} (p : Fin n → Bool) (before : Fin n → Fin n → Bool)
    (hb : ∀ a b, before a b = (p a && !p b)) (x : Fin n → EReal) (s : Fin n) :
    compactRow p x s.val = if s.val < count p then x (sortedFrom before s) else 0 := by
  unfold compactRow
  by_cases hs : s.val < count p
  · rw [if_pos hs]
    obtain ⟨i0, hp0, hr0⟩ := exists_rank_eq p s.val hs
    have hσ : sortedFrom before s = i0 := by
      have := sortedFrom_rank p before hb i0 hp0 (by rw [hr0]; exact s.isLt)
      rw [← this]
      exact congrArg (sortedFrom before) (Fin.ext hr0.symm)
    rw [hσ, Finset.sum_eq_single i0]
    · rw [if_pos ⟨hp0, hr0⟩]
    · intro k _ hk
      rw [if_neg]
      rintro ⟨hpk, hrk⟩
      exact hk (rank_injOn p k i0 hpk hp0 (hrk.trans hr0.symm))
    · intro h; exact absurd (Finset.mem_univ _) h
  · rw [if_neg hs]
    refine Finset.sum_eq_zero fun k _ => ?_
    rw [if_neg]
    rintro ⟨hpk, hrk⟩
    have := rank_lt_count p k hpk
    omega

/-- The sorted gather times the keep flag is the compaction. -/
theorem sorted_gather {n : ℕ} (p : Fin n → Bool) (before : Fin n → Fin n → Bool)
    (hb : ∀ a b, before a b = (p a && !p b)) (x : Fin n → EReal) (s : Fin n) (g keep : EReal)
    (hk : keep = if s.val < count p then 1 else 0) (hg : s.val < count p → g = x (sortedFrom before s)) :
    g * keep = compactRow p x s.val := by
  rw [compactRow_eq p before hb x s, hk]
  by_cases hs : s.val < count p
  · rw [if_pos hs, if_pos hs, hg hs, mul_one]
  · rw [if_neg hs, if_neg hs, mul_zero]

/-- The sorted gather of batch row b, times the keep flag, is the compaction of that row. -/
theorem sorted_gather_row (ids : (⟨2, ![64, 512]⟩ : Shape).Idx → BitVec 32) (b : Fin 64) (x : Fin 512 → EReal) (s : Fin 512)
    (g keep : EReal) (hk : keep = if s.val < count (valid ids b) then 1 else 0) (hg : g = x (perm ids b s)) :
    g * keep = compactRow (valid ids b) x s.val :=
  sorted_gather (valid ids b) (before ids b) (fun _ _ => rfl) x s g keep hk (fun _ => hg)

end Cert.Compact

end
-- ==== Proof.KernelDest.lean ====
/-
  The destination words and the weights they give.

  The host's destination array at (b, 0, k) is the running count of valid rows of batch row b up to and including k, minus
  one, on a valid row k, and the word −1 on the others. The valid rows up to and including a valid k are the valid rows
  below it and k itself, so the running count is rank k + 1 and the destination word is the word of rank k; ranks and
  row numbers are below 512, where two 32-bit words are equal exactly when the numbers are, and none of them is −1.
  Hence the weight of source row k in destination row s — 1 where the destination word is the word of s — is 1 exactly
  when k is valid and has s valid rows before it.
-/
import Mathlib
import Idealize.ShloMosaic.Lib.Pipeline.Value
import Idealize.ShloMosaic.Lib.ValueIdx
import proofs.«164245_j738734375311_2_alg».proof.Proof.KernelHost
import proofs.«164245_j738734375311_2_alg».proof.Proof.KernelPayload
import proofs.«164245_j738734375311_2_alg».proof.Proof.CompactSpec
import proofs.«164245_j738734375311_2_alg».proof.Proof.LibStableSortTwo
import proofs.«164245_j738734375311_2_alg».proof.Proof.LibCumsum2

noncomputable section

namespace Cert.KernelIdeal.Dest

open Cert.KernelIdeal Cert.KernelIdeal.HostDest Cert.KernelIdeal.Payload Cert.Compact Cert.LibStableSortTwo
open Idealize.ShloMosaic Idealize.ShloMosaic.ValueIdx

/-! ## Counting and word arithmetic -/

/-- The valid rows up to and including a valid row `k` are the valid rows below it, and `k`. -/
theorem card_le_eq_rank_succ {n : ℕ} (p : Fin n → Bool) (k : Fin n) (hk : p k = true) :
    (((Finset.univ : Finset (Fin n)).filter (fun q => q ≤ k)).filter (fun q => p q = true)).card
      = rank p k + 1 := by
  unfold rank
  rw [Finset.filter_filter]
  have hset : Finset.univ.filter (fun q : Fin n => q ≤ k ∧ p q = true)
      = insert k (Finset.univ.filter (fun q : Fin n => q < k ∧ p q = true)) := by
    ext q
    simp only [Finset.mem_filter, Finset.mem_univ, true_and, Finset.mem_insert]
    constructor
    · rintro ⟨hle, hp⟩
      rcases lt_or_eq_of_le hle with h | h
      · exact Or.inr ⟨h, hp⟩
      · exact Or.inl h
    · rintro (rfl | ⟨h, hp⟩)
      · exact ⟨le_refl _, hk⟩
      · exact ⟨h.le, hp⟩
  rw [hset, Finset.card_insert_of_notMem]
  simp

/-- The word of `r + 1`, minus one, is the word of `r`. -/
theorem ofNat_succ_sub_one (r : ℕ) : BitVec.ofNat 32 (r + 1) - 1#32 = BitVec.ofNat 32 r := by
  rw [BitVec.ofNat_add]
  exact add_sub_cancel_right _ _

/-- Words of numbers below `2 ^ 32` are equal only when the numbers are. -/
theorem ofNat_eq_ofNat_iff {r s : ℕ} (hr : r < 4294967296) (hs : s < 4294967296) :
    BitVec.ofNat 32 r = BitVec.ofNat 32 s ↔ r = s := by
  constructor
  · intro h
    have h' := congrArg BitVec.toNat h
    simp only [BitVec.toNat_ofNat] at h'
    omega
  · rintro rfl; rfl

/-- The word `−1` is not the word of a number below `2 ^ 32 − 1`. -/
theorem neg_one_ne_ofNat {s : ℕ} (hs : s < 4294967295) : (4294967295#32 : BitVec 32) ≠ BitVec.ofNat 32 s := by
  intro h
  have h' := congrArg BitVec.toNat h
  simp only [BitVec.toNat_ofNat] at h'
  omega

/-! ## The destination array at an index -/

/-- The destination word at `(b, 0, k)`, as the scalar operations on the flag word and the running count. -/
theorem destArray_read (ids : IVec S64x512 32) (b : Fin 64) (k : Fin 512) :
    destArray ids (ix3 b (0 : Fin 1) k)
      = Scalar.select (IntOp.cmpi .eq (ids (ix2 b k)) 1#32)
          (IntOp.subi (∑ q ∈ (Finset.univ : Finset (Fin 512)).filter (fun q => q ≤ k),
              (if valid ids b q = true then 1#32 else 0#32)) 1#32)
          4294967295#32 := by
  unfold destArray
  rw [broadcastInDim_apply _ _ _ (ix3 b (0 : Fin 1) k) (ix2 b k) (fun a => by
    match a with
    | ⟨0, _⟩ => show b.val = if (64 : ℕ) = 1 then 0 else b.val; rw [if_neg (by decide)]
    | ⟨1, _⟩ => show k.val = if (512 : ℕ) = 1 then 0 else k.val; rw [if_neg (by decide)])]
  show Scalar.select (IntOp.cmpi .eq (ids (ix2 b k)) 1#32)
      (IntOp.subi (Host.reduceWindow _ _ _ _ _ _ _ _ _ (ix2 b k)) 1#32) 4294967295#32 = _
  rw [Cert.LibCumsum2.cumsum2_apply (B := 64) (n := 512) (lo := 511) rfl _ _ _ _ rfl b k]
  refine congrArg (fun t => Scalar.select (IntOp.cmpi .eq (ids (ix2 b k)) 1#32) (IntOp.subi t 1#32) 4294967295#32) ?_
  refine Finset.sum_congr rfl fun q _ => ?_
  show (BitVec.ofBool (ids (ix2 b q) == 1#32)).setWidth 32
    = if (ids (ix2 b q) == 1#32) = true then 1#32 else 0#32
  cases (ids (ix2 b q) == 1#32) <;> rfl

/-- The destination word of row `k` of batch row `b`: the word of its rank if the row is valid, the word `−1` otherwise. -/
theorem dest_apply (ids : IVec S64x512 32) (b : Fin 64) (k : Fin 512) :
    destArray ids (ix3 b (0 : Fin 1) k)
      = if valid ids b k = true then BitVec.ofNat 32 (rank (valid ids b) k) else 4294967295#32 := by
  rw [destArray_read, Cert.LibCumsum2.sum_indicator_eq_card]
  cases hv : valid ids b k
  · have hc : IntOp.cmpi .eq (ids (ix2 b k)) 1#32 = 0#1 := by
      have hv' : (ids (ix2 b k) == 1#32) = false := hv
      show BitVec.ofBool (ids (ix2 b k) == 1#32) = 0#1
      rw [hv']; rfl
    rw [hc, select_zero, if_neg (by decide)]
  · have hc : IntOp.cmpi .eq (ids (ix2 b k)) 1#32 = 1#1 := by
      have hv' : (ids (ix2 b k) == 1#32) = true := hv
      show BitVec.ofBool (ids (ix2 b k) == 1#32) = 1#1
      rw [hv']; rfl
    rw [hc, select_one, if_pos rfl, card_le_eq_rank_succ (valid ids b) k hv]
    exact ofNat_succ_sub_one _

/-- The weight of source row `k` in destination row `s`: one exactly when the row is valid of rank `s`. -/
theorem weight_apply (ids : IVec S64x512 32) (b : Fin 64) (k s : Fin 512) :
    W (destArray ids (ix3 b (0 : Fin 1) k)) s.val
      = if valid ids b k = true ∧ rank (valid ids b) k = s.val then 1 else 0 := by
  rw [W_eq, dest_apply]
  have hs : s.val < 512 := s.isLt
  cases hv : valid ids b k
  · have h1 : (if false = true then BitVec.ofNat 32 (rank (valid ids b) k) else 4294967295#32)
        = 4294967295#32 := if_neg (by decide)
    have h2 : ¬ (false = true ∧ rank (valid ids b) k = s.val) := fun h => absurd h.1 (by decide)
    rw [h1, if_neg (neg_one_ne_ofNat (s := s.val) (by omega)), if_neg h2]
  · have hr : rank (valid ids b) k < 512 :=
      lt_of_lt_of_le (rank_lt_count (valid ids b) k hv) (count_le (valid ids b))
    have h1 : (if true = true then BitVec.ofNat 32 (rank (valid ids b) k) else 4294967295#32)
        = BitVec.ofNat 32 (rank (valid ids b) k) := if_pos rfl
    rw [h1]
    by_cases he : rank (valid ids b) k = s.val
    · have h2 : true = true ∧ rank (valid ids b) k = s.val := ⟨rfl, he⟩
      rw [if_pos (congrArg (BitVec.ofNat 32) he), if_pos h2]
    · have h2 : ¬ (true = true ∧ rank (valid ids b) k = s.val) := fun h => he h.2
      have h3 : ¬ (BitVec.ofNat 32 (rank (valid ids b) k) = BitVec.ofNat 32 s.val) :=
        fun h => he ((ofNat_eq_ofNat_iff (by omega) (by omega)).mp h)
      rw [if_neg h3, if_neg h2]

end Cert.KernelIdeal.Dest

end
-- ==== Proof.KernelValue.lean ====
/-
  The kernel's result array is the compaction of its input.

  After the run the result array is the weighted block sum of the input and the destination array (the blocks tile the
  batch rows); the destination array is the host's running count; the weight of source row k in destination row s is 1
  exactly when k is valid and has s valid rows before it; and every entry of the input is a real number under the
  precondition, so the low part x − x of the split vanishes and the sum is the one valid row of rank s, or zero.
-/
import proofs.«164245_j738734375311_2_alg».proof.Proof.KernelBlocks
import proofs.«164245_j738734375311_2_alg».proof.Proof.KernelHost
import proofs.«164245_j738734375311_2_alg».proof.Proof.KernelDest
import proofs.«164245_j738734375311_2_alg».proof.Proof.CompactSpec

noncomputable section

namespace Cert.KernelIdeal.Compaction

open Cert.KernelIdeal Cert.KernelIdeal.Gen Idealize.ShloMosaic Idealize.ShloMosaic.TcCoe Idealize.SL.Sem
open Idealize.ShloMosaic.ValueIdx Cert.KernelIdeal.Payload Cert.KernelIdeal.Blocks Cert.KernelIdeal.HostDest Cert.KernelIdeal.Dest
open Cert.Compact

variable (m : (ℓ : Loc nD τ sig) → Buf (Elt Idealize.ShloMosaic.Ideal) ℓ) (ρ : Dev nD → PrngReg)

/-- The weighted block sum of a real input and the host's destination array is the compaction. -/
theorem blockSum_eq_compact (x : S64x512x1024.Idx → EReal) (ids : IVec S64x512 32) (hx : ∀ i, ∃ r : ℝ, x i = (r : EReal)) :
    blockSum x (destArray ids) = compact x ids := by
  funext i
  obtain ⟨b, s, h, rfl⟩ : ∃ (b : Fin 64) (s : Fin 512) (h : Fin 1024), i = ix3 b s h := ⟨i 0, i 1, i 2, eq_ix3 i⟩
  exact onehot_sum (valid ids b) (fun k => x (ix3 b k h)) (fun k => hx _) s.val
    (fun k => W (destArray ids (ix3 b (0 : Fin 1) k)) s.val) (fun k => weight_apply ids b k s)

/-- THE RESULT ARRAY after the run, when every entry of the input is a real number. -/
theorem result_eq (c : Dev nD)
    (hx : ∀ i, ∃ r : ℝ, (m ((c : Thread nD τ).loc main_arg0) : S64x512x1024.Idx → EReal) i = (r : EReal)) :
    (dats m 0 c).arrAt 2 cfg0.N = compact (m ((c : Thread nD τ).loc main_arg0)) (m ((c : Thread nD τ).loc main_arg1)) := by
  rw [Blocks.final, V_main_arg0, V_dest]
  exact blockSum_eq_compact _ _ hx

/-- The kernel's run with its result named: the compaction of the input by the flags; the arguments unchanged. -/
theorem run (hx : ∀ (c : Dev nD) i, ∃ r : ℝ, (m ((c : Thread nD τ).loc main_arg0) : S64x512x1024.Idx → EReal) i = (r : EReal)) :
    θ_run defs (onTc (τ := τ) (main (F := Idealize.ShloMosaic.Ideal))) ⟨m, fun _ => 0, ρ⟩ fun r => ∀ c : Dev nD,
      r.2.mem ((c : Thread nD τ).loc main_v8) = compact (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c (hx c)), (h c).2⟩) (Value.run_blocks m ρ)

end Cert.KernelIdeal.Compaction

end
-- ==== Proof.RefKeep.lean ====
/-
  THE KEEP FLAG of the reference program, read at an index.

  The reference multiplies the gathered rows by a flag that is one at the positions below the number of valid rows of the batch
  row and zero after them. Here that flag is read at `(b, s, h)`: it is the conversion to a real number of the one-bit word
  "the column number `s`, as a 32-bit word, is less (signed) than the integer row sum of the validity words of batch row `b`".
  The validity word of row `q` is the indicator word of `valid x1 b q` (`v6_apply`), so the row sum is the word of the number of
  valid rows (`v7_apply`, by the row-sum and indicator-sum lemmas); both that number and `s` are at most 512, far below
  `2 ^ 31`, where signed "less than" of words is "less than" of the numbers (`slt_ofNat_small`). So the flag is
  `if s < count (valid x1 b) then 1 else 0` (`keep_apply`).
-/
import Mathlib
import Idealize.ShloMosaic.PureOps.Contract
import Idealize.ShloMosaic.PureOps.Reduce
import Idealize.ShloMosaic.PureOps.Ideal
import Idealize.ShloMosaic.Lib.ValueIdx
import Idealize.ShloMosaic.Lib.Pipeline.Value
import proofs.«164245_j738734375311_2_alg».proof.Proof.RefRead
import proofs.«164245_j738734375311_2_alg».proof.Proof.CompactSpec
import proofs.«164245_j738734375311_2_alg».proof.Proof.LibCumsum2

open scoped BigOperators

namespace Cert.RefKeep

open Cert.ReferenceIdeal Cert.ReferenceIdeal.Gen Cert.ReferenceIdeal.Read Idealize.ShloMosaic Idealize.ShloMosaic.ValueIdx
  Cert.Compact Cert.LibStableSortTwo

/-- Signed "less than" of the words of two numbers below `2 ^ 31` is "less than" of the numbers. -/
theorem slt_ofNat_small (a c : ℕ) (ha : a < 2 ^ 31) (hc : c < 2 ^ 31) :
    (BitVec.ofNat 32 a).slt (BitVec.ofNat 32 c) = decide (a < c) := by
  have ha' : (BitVec.ofNat 32 a).toInt = (a : ℤ) := by
    rw [BitVec.toInt_eq_toNat_of_lt (by rw [BitVec.toNat_ofNat]; omega), BitVec.toNat_ofNat, Nat.mod_eq_of_lt (by omega)]
  have hc' : (BitVec.ofNat 32 c).toInt = (c : ℤ) := by
    rw [BitVec.toInt_eq_toNat_of_lt (by rw [BitVec.toNat_ofNat]; omega), BitVec.toNat_ofNat, Nat.mod_eq_of_lt (by omega)]
  unfold BitVec.slt
  rw [ha', hc']
  simp

/-- The widened validity bit of row `q` of batch row `b` is the indicator word of its validity. -/
theorem v6_apply (x1 : IVec S64x512 32) (b : Fin 64) (q : Fin 512) :
    val_main_v6 (F := Ideal) x1 (ix2 b q) = if valid x1 b q = true then 1#32 else 0#32 := by
  rw [val_main_v6_apply, val_main_v1_apply, val_main_v0_apply, val_main_c_apply]
  show (BitVec.ofBool (x1 (ix2 b q) == 1#32)).setWidth 32 = if (x1 (ix2 b q) == 1#32) = true then 1#32 else 0#32
  generalize (x1 (ix2 b q) == 1#32) = c
  cases c <;> rfl

/-- The integer row sum of the validity words of batch row `b` is the word of the number of valid rows. -/
theorem v7_apply (x1 : IVec S64x512 32) (b : Fin 64) :
    val_main_v7 (F := Ideal) x1 (ix1 b) = BitVec.ofNat 32 (count (valid x1 b)) := by
  unfold val_main_v7
  refine (Cert.LibCumsum2.rowsum_apply (B := 64) (n := 512) _ _ _ _ rfl b).trans ?_
  rw [Finset.sum_congr rfl (fun q _ => v6_apply x1 b q)]
  exact Cert.LibCumsum2.sum_indicator_eq_card Finset.univ (fun q => valid x1 b q = true)

/-- THE KEEP FLAG of the reference at `(b, s, h)`: one when position `s` is below the number of valid rows of batch row `b`,
    else zero. -/
theorem keep_apply (x1 : IVec S64x512 32) (b : Fin 64) (s : Fin 512) (h : Fin 1024) :
    val_main_v16 (F := Ideal) x1 (ix3 b s h) = if s.val < count (valid x1 b) then (1 : EReal) else 0 := by
  rw [val_main_v16_apply, val_main_v15_apply, val_main_v14_apply, val_main_v13_apply, val_main_v11_apply,
    val_main_v10_apply, val_main_v9_apply, val_main_v12_apply, val_main_v8_apply]
  have hb : idx_main_v8 (idx_main_v12 (idx_main_v14 (idx_main_v16 (ix3 b s h)))) = ix1 b := by
    funext a
    match a with
    | ⟨0, _⟩ => rfl
  rw [hb, v7_apply]
  have hc : count (valid x1 b) ≤ 512 := count_le _
  generalize count (valid x1 b) = c at hc ⊢
  show (((BitVec.ofBool ((BitVec.ofNat 32 s.val).slt (BitVec.ofNat 32 c))).toNat : ℝ) : EReal) = _
  rw [slt_ofNat_small _ _ (by have := s.isLt; omega) (by omega)]
  by_cases hlt : s.val < c
  · rw [if_pos hlt, decide_eq_true hlt]; simp
  · rw [if_neg hlt, decide_eq_false hlt]; simp

end Cert.RefKeep
-- ==== Proof.LibBatchGather.lean ====
import Mathlib
import Idealize.ShloMosaic.PureOps
import Idealize.ShloMosaic.Lib.ValueIdx

/-!
# A batched gather along the middle axis, read at an index

For an operand `x : [B, S, H]` and start indices `idx : [B, S, 1]`, the gather with offset axes `[2]`,
collapsed slice axes `[1]`, operand batching axes `[0]`, start-indices batching axes `[0]`, start index map
`[1]`, index vector axis `2` and slice sizes `[1, 1, H]` has result shape `[B, S, H]`, and its element at
`(b, s, h)` is `x` at `(b, c, h)` where `c` is the start index `idx[b, s, 0]` read as a signed integer and
clamped into `[0, S − 1]`.

Per operand axis the coordinate read is (clamped start) + (batching coordinate) + (offset coordinate):
* axis 0 is a batching axis: start `0`, offset `0`, batching coordinate `b`;
* axis 1 is the collapsed axis named by the start index map: batching `0`, offset `0`, start the clamped index;
* axis 2 is the one kept axis: start `0`, batching `0`, offset coordinate `h`.
-/

namespace Cert.LibBatchGather

open Idealize.ShloMosaic Idealize.ShloMosaic.ValueIdx

variable {α : Type}

/-- Those dimension numbers for an operand `[B, S, H]`, start indices `[B, S, 1]` and result `[B, S, H]`; their
    conditions `wf` are decided on literal shapes. -/
abbrev batchTakeDims (B S H : Nat)
    (wf : GatherDims.WF ⟨3, ![B, S, H]⟩ ⟨3, ![B, S, 1]⟩ ⟨3, ![B, S, H]⟩ [2] [1] [0] [1] [0] 2 ![1, 1, H]) :
    GatherDims ⟨3, ![B, S, H]⟩ ⟨3, ![B, S, 1]⟩ ⟨3, ![B, S, H]⟩ where
  offsetDims := [2]
  collapsedSliceDims := [1]
  operandBatchingDims := [0]
  startIndicesBatchingDims := [0]
  startIndexMap := [1]
  indexVectorDim := 2
  sliceSizes := ![1, 1, H]
  wf := wf

/-- Operand axis 0 (the batching axis): the start is `0` (a batching axis is not in the start index map), the
    offset coordinate is `0` (a batching axis is not kept), and the batching coordinate is the result's
    coordinate on axis 0. -/
theorem coord0 {B S H w : Nat}
    (wf : GatherDims.WF ⟨3, ![B, S, H]⟩ ⟨3, ![B, S, 1]⟩ ⟨3, ![B, S, H]⟩ [2] [1] [0] [1] [0] 2 ![1, 1, H])
    (idx : IVec ⟨3, ![B, S, 1]⟩ w) (y : (⟨3, ![B, S, H]⟩ : Shape).Idx) :
    (batchTakeDims B S H wf).start y idx (0 : Fin 3) + (batchTakeDims B S H wf).batchCoord y (0 : Fin 3)
      + (batchTakeDims B S H wf).offCoord y (0 : Fin 3) = (y 0).val := by
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin 3) ∈ (batchTakeDims B S H wf).operandBatchingDims from List.mem_singleton.mpr rfl)]
  rfl

/-- Operand axis 1 (collapsed, and the one axis the start index map names): batching and offset coordinates are
    `0`, and the start is the index word at `(b, s, 0)` read signed and clamped into `[0, S − 1]` (the slice
    size on this axis is `1`). -/
theorem coord1 {B S H w : Nat}
    (wf : GatherDims.WF ⟨3, ![B, S, H]⟩ ⟨3, ![B, S, 1]⟩ ⟨3, ![B, S, H]⟩ [2] [1] [0] [1] [0] 2 ![1, 1, H])
    (idx : IVec ⟨3, ![B, S, 1]⟩ w) (y : (⟨3, ![B, S, H]⟩ : Shape).Idx) :
    (batchTakeDims B S H wf).start y idx (1 : Fin 3) + (batchTakeDims B S H wf).batchCoord y (1 : Fin 3)
      + (batchTakeDims B S H wf).offCoord y (1 : Fin 3) = min (idx (ix3 (y 0) (y 1) 0)).toInt.toNat (S - 1) := by
  rw [GatherDims.batchCoord_eq_zero _ _ _ (show (1 : Fin 3) ∉ [(0 : Fin 3)] by decide),
    GatherDims.offCoord_eq_zero _ _ _ (fun h => ((GatherDims.mem_sKept _ _).mp h).1 (List.mem_singleton.mpr rfl))]
  simp only [Nat.add_zero]
  unfold GatherDims.start
  rw [dif_pos (show (1 : Fin 3) ∈ (batchTakeDims B S H wf).startIndexMap from List.mem_singleton.mpr rfl)]
  -- the start-indices index read for component 0 of the start index is `(b, s, 0)`
  have hsi : (batchTakeDims B S H wf).siIdx y ⟨List.idxOf (1 : Fin 3) (batchTakeDims B S H wf).startIndexMap,
      List.idxOf_lt_length_iff.2 (List.mem_singleton.mpr rfl)⟩ = ix3 (y 0) (y 1) 0 := by
    funext b; refine Fin.ext ?_
    match b with
    | ⟨0, _⟩ => rfl
    | ⟨1, _⟩ => rfl
    | ⟨2, _⟩ => rfl
  rw [hsi]
  rfl

/-- Operand axis 2 (the kept axis): start and batching coordinate are `0`, and the offset coordinate is the
    result's coordinate on its one offset axis, axis 2. -/
theorem coord2 {B S H w : Nat}
    (wf : GatherDims.WF ⟨3, ![B, S, H]⟩ ⟨3, ![B, S, 1]⟩ ⟨3, ![B, S, H]⟩ [2] [1] [0] [1] [0] 2 ![1, 1, H])
    (idx : IVec ⟨3, ![B, S, 1]⟩ w) (y : (⟨3, ![B, S, H]⟩ : Shape).Idx) :
    (batchTakeDims B S H wf).start y idx (2 : Fin 3) + (batchTakeDims B S H wf).batchCoord y (2 : Fin 3)
      + (batchTakeDims B S H wf).offCoord y (2 : Fin 3) = (y 2).val := by
  rw [GatherDims.batchCoord_eq_zero _ _ _ (show (2 : Fin 3) ∉ [(0 : Fin 3)] by decide)]
  have hst : (batchTakeDims B S H wf).start y idx (2 : Fin 3) = 0 := by
    unfold GatherDims.start
    rw [dif_neg (show (2 : Fin 3) ∉ (batchTakeDims B S H wf).startIndexMap from
      (show (2 : Fin 3) ∉ [(1 : Fin 3)] by decide))]
  rw [hst]
  simp only [Nat.zero_add, Nat.add_zero]
  unfold GatherDims.offCoord
  rw [dif_pos (show (2 : Fin 3) ∈ (batchTakeDims B S H wf).sKept from
    (GatherDims.mem_sKept _ _).mpr ⟨(show (2 : Fin 3) ∉ [(1 : Fin 3)] by decide),
      (show (2 : Fin 3) ∉ [(0 : Fin 3)] by decide)⟩)]
  rfl

/-- THE BATCHED GATHER READ AT `(b, s, h)`: the operand at `(b, c, h)`, where `c` is the start index
    `idx[b, s, 0]` read signed and clamped into `[0, S − 1]`. -/
theorem batch_take_apply {B S H w : Nat} (hS : 0 < S)
    (wf : GatherDims.WF ⟨3, ![B, S, H]⟩ ⟨3, ![B, S, 1]⟩ ⟨3, ![B, S, H]⟩ [2] [1] [0] [1] [0] 2 ![1, 1, H])
    (x : (⟨3, ![B, S, H]⟩ : Shape).Idx → α) (idx : IVec ⟨3, ![B, S, 1]⟩ w) (y : (⟨3, ![B, S, H]⟩ : Shape).Idx) :
    Host.gather (batchTakeDims B S H wf) x idx y =
      x (ix3 (y 0) ⟨min (idx (ix3 (y 0) (y 1) 0)).toInt.toNat (S - 1), by omega⟩ (y 2)) := by
  unfold Host.gather
  congr 1
  funext a
  refine Fin.ext ?_
  match a with
  | ⟨0, _⟩ => exact coord0 wf idx y
  | ⟨1, _⟩ => exact coord1 wf idx y
  | ⟨2, _⟩ => exact coord2 wf idx y

end Cert.LibBatchGather
-- ==== Proof.LibSortRead.lean ====
import Mathlib
import Idealize.ShloMosaic.Lib.SortFacts
import Idealize.ShloMosaic.Lib.ValueIdx

namespace Cert.LibSortRead

open Idealize.ShloMosaic Idealize.ShloMosaic.ValueIdx

/-! ## Reading a two-operand stable sort along the last axis of a rank-2 array -/

/-- Moving a rank-2 index along its last axis replaces its last coordinate. -/
theorem along_ix2_last {B n : ℕ} (b : Fin B) (s k : Fin n) (h : 1 < (⟨2, ![B, n]⟩ : Shape).rank) :
    (ix2 b s).along ⟨1, h⟩ k = ix2 b k := by
  funext a
  match a with
  | ⟨0, _⟩ => exact Function.update_of_ne (Fin.ne_of_val_ne (show (0 : ℕ) ≠ 1 by decide)) _ _
  | ⟨1, _⟩ => exact Function.update_self _ _ _

/-- The second component of the sort, read at `(b, s)`: the second operand at the position the stable sort of
    row `b` puts at `s`. -/
theorem sort2_snd_apply {B n : ℕ} {α β : Type} (cmp : α × β → α × β → BitVec 1)
    (x : (⟨2, ![B, n]⟩ : Shape).Idx → α) (y : (⟨2, ![B, n]⟩ : Shape).Idx → β) (b : Fin B) (s : Fin n) :
    (Host.sort2 ⟨2, ![B, n]⟩ 1 cmp x y).2 (ix2 b s)
      = y (ix2 b (sortedFrom (fun k k' : Fin n =>
          cmp (x (ix2 b k), y (ix2 b k)) (x (ix2 b k'), y (ix2 b k')) == 1#1) s)) := by
  have h : 1 < (⟨2, ![B, n]⟩ : Shape).rank := by show 1 < 2; omega
  have hal : ∀ k : Fin n, (ix2 b s).along ⟨1, h⟩ k = ix2 b k := fun k => along_ix2_last b s k h
  have hf : (fun k k' : Fin n =>
      cmp (x ((ix2 b s).along ⟨1, h⟩ k), y ((ix2 b s).along ⟨1, h⟩ k))
        (x ((ix2 b s).along ⟨1, h⟩ k'), y ((ix2 b s).along ⟨1, h⟩ k')) == 1#1)
      = (fun k k' : Fin n => cmp (x (ix2 b k), y (ix2 b k)) (x (ix2 b k'), y (ix2 b k')) == 1#1) := by
    funext k k'
    rw [hal k, hal k']
  unfold Host.sort2
  rw [dif_pos h]
  show y ((ix2 b s).along ⟨1, h⟩ (sortedFrom (n := n) (fun k k' : Fin n =>
      cmp (x ((ix2 b s).along ⟨1, h⟩ k), y ((ix2 b s).along ⟨1, h⟩ k))
        (x ((ix2 b s).along ⟨1, h⟩ k'), y ((ix2 b s).along ⟨1, h⟩ k')) == 1#1) s)) = _
  rw [hal, hf]

/-- The first component of the sort, read at `(b, s)`. -/
theorem sort2_fst_apply {B n : ℕ} {α β : Type} (cmp : α × β → α × β → BitVec 1)
    (x : (⟨2, ![B, n]⟩ : Shape).Idx → α) (y : (⟨2, ![B, n]⟩ : Shape).Idx → β) (b : Fin B) (s : Fin n) :
    (Host.sort2 ⟨2, ![B, n]⟩ 1 cmp x y).1 (ix2 b s)
      = x (ix2 b (sortedFrom (fun k k' : Fin n =>
          cmp (x (ix2 b k), y (ix2 b k)) (x (ix2 b k'), y (ix2 b k')) == 1#1) s)) := by
  have h : 1 < (⟨2, ![B, n]⟩ : Shape).rank := by show 1 < 2; omega
  have hal : ∀ k : Fin n, (ix2 b s).along ⟨1, h⟩ k = ix2 b k := fun k => along_ix2_last b s k h
  have hf : (fun k k' : Fin n =>
      cmp (x ((ix2 b s).along ⟨1, h⟩ k), y ((ix2 b s).along ⟨1, h⟩ k))
        (x ((ix2 b s).along ⟨1, h⟩ k'), y ((ix2 b s).along ⟨1, h⟩ k')) == 1#1)
      = (fun k k' : Fin n => cmp (x (ix2 b k), y (ix2 b k)) (x (ix2 b k'), y (ix2 b k')) == 1#1) := by
    funext k k'
    rw [hal k, hal k']
  unfold Host.sort2
  rw [dif_pos h]
  show x ((ix2 b s).along ⟨1, h⟩ (sortedFrom (n := n) (fun k k' : Fin n =>
      cmp (x ((ix2 b s).along ⟨1, h⟩ k), y ((ix2 b s).along ⟨1, h⟩ k))
        (x ((ix2 b s).along ⟨1, h⟩ k'), y ((ix2 b s).along ⟨1, h⟩ k')) == 1#1) s)) = _
  rw [hal, hf]

/-! ## The two-valued key's comparator -/

/-- The key of a word: `0` where the word is `1`, and `1` elsewhere. -/
theorem key_eq (c : BitVec 32) :
    Scalar.select (IntOp.cmpi .eq c 1#32) 0#32 1#32 = if c == 1#32 then 0#32 else 1#32 := by
  cases hc : (c == 1#32) <;> simp [IntOp.cmpi, Scalar.select, hc]

/-- "Strictly before" under signed `<` on the keys is "the first word is `1` and the second is not". -/
theorem key_before (a b : BitVec 32) :
    (IntOp.cmpi .slt (Scalar.select (IntOp.cmpi .eq a 1#32) 0#32 1#32)
        (Scalar.select (IntOp.cmpi .eq b 1#32) 0#32 1#32) == 1#1)
      = ((a == 1#32) && !(b == 1#32)) := by
  rw [key_eq a, key_eq b]
  cases (a == 1#32) <;> cases (b == 1#32) <;> decide

end Cert.LibSortRead
-- ==== Proof.LibAndReduce.lean ====
/-
  GENERAL LEMMA — an and-reduction of one-bit words that are all one, started from one, is one at every result index.
-/
import Mathlib
import Idealize.ShloMosaic.PureOps.Contract
import Idealize.ShloMosaic.PureOps.Reduce

namespace Cert.LibAndReduce

open Idealize.ShloMosaic

/-- An and-reduction of one-bit words that are all one, from the initial value one, is one at every index: the fold
    meets only ones, and one and one is one. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  generalize (((List.finRange s.numel).map s.rowMajor.symm).filter fun i => h.drop i = j) = l
  induction l with
  | nil => rfl
  | cons a l ih =>
    rw [List.foldl_cons, hx a, show IntOp.andi 1#1 1#1 = 1#1 from by decide]
    exact ih

end Cert.LibAndReduce
-- ==== Proof.RefGather.lean ====
import Mathlib
import proofs.«164245_j738734375311_2_alg».proof.Proof.RefRead
import proofs.«164245_j738734375311_2_alg».proof.Proof.CompactSpec
import proofs.«164245_j738734375311_2_alg».proof.Proof.LibBatchGather
import proofs.«164245_j738734375311_2_alg».proof.Proof.LibSortRead
import proofs.«164245_j738734375311_2_alg».proof.Proof.LibAndReduce
import Idealize.ShloMosaic.Lib.ValueIdx
import Idealize.ShloMosaic.Lib.Pipeline.Value
import Idealize.ShloMosaic.PureOps.Ideal

/-!
# The reference program's gathered value, read at an index

The reference sorts each batch row's positions stably by a two-valued key (`0` where the flag word is `1`, else
`1`), carrying the positions `0 … 511` along as the second operand, and then gathers the rows of the input along
the middle axis at the sorted positions. Read at `(b, s, h)`:

1. the order word at `(b, s)` is the word of `σ = perm ids b s`, the source position the stable sort puts at `s`;
2. the index wrapped for negatives, `if o < 0 then o + 512 else o`, is `o` itself, since `0 ≤ σ < 512`;
3. every wrapped index satisfies `0 ≤ · ≤ 511`, so the reduction by `and` of these tests is `1` everywhere and the
   final select takes the gathered value, never the fill value;
4. the gather reads the input at `(b, clamp σ, h)` with `clamp` the signed reading clamped into `[0, 511]`, which
   is `σ`.

From step 1 on the sorted position is a variable `σ : Fin 512` known only through the order word, so nothing
below depends on how the sort computes.
-/

noncomputable section

namespace Cert.RefGather

open Cert.ReferenceIdeal Cert.ReferenceIdeal.Gen Cert.ReferenceIdeal.Read Idealize.ShloMosaic
  Idealize.ShloMosaic.ValueIdx Cert.Compact Cert.LibStableSortTwo

/-! ## Words below 512 -/

/-- The 32-bit word of a number below 512, read signed, is that number. -/
theorem ofNat_toInt (n : ℕ) (hn : n < 512) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

/-- Wrapping a negative index by adding 512 leaves the word of a number below 512 alone: it is not negative. -/
theorem wrap_word (n : ℕ) (hn : n < 512) :
    Scalar.select (IntOp.cmpi .slt (BitVec.ofNat 32 n) 0#32) (IntOp.addi (BitVec.ofNat 32 n) 512#32)
      (BitVec.ofNat 32 n) = BitVec.ofNat 32 n := by
  have hs : (BitVec.ofNat 32 n).slt 0#32 = false := by
    rw [Bool.eq_false_iff]
    intro h
    rw [BitVec.slt_iff_toInt_lt, ofNat_toInt n hn] at h
    have h0 : (0#32 : BitVec 32).toInt = 0 := by decide
    rw [h0] at h; omega
  have hc : IntOp.cmpi .slt (BitVec.ofNat 32 n) 0#32 = 0#1 := by
    show BitVec.ofBool ((BitVec.ofNat 32 n).slt 0#32) = 0#1
    rw [hs]; rfl
  rw [hc, select_zero]

/-- The word of a number below 512 passes the range test `0 ≤ · ≤ 511` (signed). -/
theorem inrange_word (n : ℕ) (hn : n < 512) :
    IntOp.andi (IntOp.cmpi .sge (BitVec.ofNat 32 n) 0#32) (IntOp.cmpi .sle (BitVec.ofNat 32 n) 511#32) = 1#1 := by
  have h1 : (0#32 : BitVec 32).sle (BitVec.ofNat 32 n) = true := by
    rw [BitVec.sle_iff_toInt_le, ofNat_toInt n hn]
    have h0 : (0#32 : BitVec 32).toInt = 0 := by decide
    rw [h0]; omega
  have h2 : (BitVec.ofNat 32 n).sle 511#32 = true := by
    rw [BitVec.sle_iff_toInt_le, ofNat_toInt n hn]
    have h0 : (511#32 : BitVec 32).toInt = 511 := by decide
    rw [h0]; omega
  show IntOp.andi (BitVec.ofBool ((0#32 : BitVec 32).sle (BitVec.ofNat 32 n)))
    (BitVec.ofBool ((BitVec.ofNat 32 n).sle 511#32)) = 1#1
  rw [h1, h2]; rfl

/-- Read signed and clamped into `[0, 511]`, the word of a number below 512 is that number. -/
theorem clamp_word (n : ℕ) (hn : n < 512) : min (BitVec.ofNat 32 n).toInt.toNat (512 - 1) = n := by
  rw [ofNat_toInt n hn, Int.toNat_natCast]; omega

/-! ## The chain -/

/-- The sort key at `(b, k)`: `0` where the flag word is `1`, else `1`. -/
theorem key_apply (x1 : IVec S64x512 32) (b : Fin 64) (k : Fin 512) :
    val_main_v2 (F := Ideal) x1 (ix2 b k) = Scalar.select (IntOp.cmpi .eq (x1 (ix2 b k)) 1#32) 0#32 1#32 := by
  rw [val_main_v2_apply, val_main_v1_apply, val_main_v0_apply, val_main_c_apply, val_main_call0_v0_apply,
    val_main_c_0_apply, val_main_call0_v1_apply, val_main_c_1_apply]

/-- (1) THE ORDER WORD at `(b, s)` is the word of the source position the stable sort of row `b` puts at `s`: the
    comparator on the keys is "valid before invalid", and the sorted second operand is the positions themselves. -/
theorem order_apply (x1 : IVec S64x512 32) (b : Fin 64) (s : Fin 512) :
    val_main_v3 (F := Ideal) x1 (ix2 b s) = BitVec.ofNat 32 (perm x1 b s).val := by
  -- the comparator's relation on positions is `before`
  have hrel : (fun k k' : Fin 512 =>
      comparator_i32_i32_d1 (val_main_v2 (F := Ideal) x1 (ix2 b k), val_main_call1_v0 (F := Ideal) (ix2 b k))
        (val_main_v2 (F := Ideal) x1 (ix2 b k'), val_main_call1_v0 (F := Ideal) (ix2 b k')) == 1#1)
      = before x1 b := by
    funext k k'
    show (IntOp.cmpi .slt (val_main_v2 (F := Ideal) x1 (ix2 b k)) (val_main_v2 (F := Ideal) x1 (ix2 b k')) == 1#1)
      = ((x1 (ix2 b k) == 1#32) && !(x1 (ix2 b k') == 1#32))
    rw [key_apply, key_apply]
    exact Cert.LibSortRead.key_before _ _
  unfold val_main_v3
  refine (Cert.LibSortRead.sort2_snd_apply comparator_i32_i32_d1 (val_main_v2 (F := Ideal) x1)
    (val_main_call1_v0 (F := Ideal)) b s).trans ?_
  rw [hrel]
  unfold perm
  -- from here the sorted position is a variable; the second operand at `(b, σ)` is the word of `σ`
  generalize sortedFrom (before x1 b) s = σ
  rfl

/-- (2) THE WRAPPED INDEX at `(b, s, 0)` is the order word itself, the order word being the word of some
    `σ < 512`. -/
theorem wrapped_of_order (x1 : IVec S64x512 32) (b : Fin 64) (s : Fin 512) (σ : Fin 512)
    (hσ : val_main_v3 (F := Ideal) x1 (ix2 b s) = BitVec.ofNat 32 σ.val) :
    val_main_call2_v4 (F := Ideal) x1 (ix3 b s 0) = BitVec.ofNat 32 σ.val := by
  have hidx : idx_main_v4 (ix3 b s (0 : Fin 1)) = ix2 b s := by
    funext a
    match a with
    | ⟨0, _⟩ => rfl
    | ⟨1, _⟩ => rfl
  have hv4 : val_main_v4 (F := Ideal) x1 (ix3 b s 0) = BitVec.ofNat 32 σ.val := by
    rw [val_main_v4_apply, hidx, hσ]
  rw [val_main_call2_v4_apply, val_main_call2_v1_apply, val_main_call2_v3_apply, hv4, val_main_call2_v0_apply,
    val_main_call2_c_apply, val_main_call2_v2_apply, val_main_call2_c_0_apply]
  exact wrap_word σ.val σ.isLt

/-- (3a) The range test at `(b, s, 0)` is `1`, the order word being the word of some `σ < 512`. -/
theorem inrange_of_order (x1 : IVec S64x512 32) (b : Fin 64) (s : Fin 512) (σ : Fin 512)
    (hσ : val_main_v3 (F := Ideal) x1 (ix2 b s) = BitVec.ofNat 32 σ.val) :
    val_main_call2_v10 (F := Ideal) x1 (ix3 b s 0) = 1#1 := by
  have hv4 := wrapped_of_order x1 b s σ hσ
  rw [val_main_call2_v10_apply, val_main_call2_v6_apply, val_main_call2_v9_apply, hv4, val_main_call2_v5_apply,
    val_main_call2_c_2_apply, val_main_call2_v8_apply, val_main_call2_v7_apply, val_main_call2_c_1_apply]
  exact inrange_word σ.val σ.isLt

/-- (3b) The range test is `1` at every index: every order word is the word of a position below 512. -/
theorem inrange_all (x1 : IVec S64x512 32) (i : S64x512x1.Idx) : val_main_call2_v10 (F := Ideal) x1 i = 1#1 := by
  obtain ⟨a, b', c, rfl⟩ : ∃ (a : Fin 64) (b' : Fin 512) (c : Fin 1), i = ix3 a b' c := ⟨_, _, _, eq_ix3 i⟩
  obtain rfl : c = 0 := Subsingleton.elim _ _
  obtain ⟨σ, hσ⟩ : ∃ σ : Fin 512, val_main_v3 (F := Ideal) x1 (ix2 a b') = BitVec.ofNat 32 σ.val :=
    ⟨_, order_apply x1 a b'⟩
  exact inrange_of_order x1 a b' σ hσ

/-- (3c) The reduction by `and` of the range tests, from `1`, is `1` everywhere. -/
theorem keep_all (x1 : IVec S64x512 32) (j : S64x512.Idx) : val_main_call2_v11 (F := Ideal) x1 j = 1#1 := by
  unfold val_main_call2_v11
  exact Cert.LibAndReduce.reduce_andi_of_all_one _ _ _ _ (inrange_all x1) rfl j

/-- (4) THE GATHER at `(b, s, h)`, the order word at `(b, s)` being the word of `σ < 512`: the select takes the
    gathered value, which is the input at `(b, σ, h)`. -/
theorem gathered_of_order (x0 : FVec Ideal S64x512x1024 .f32) (x1 : IVec S64x512 32) (b : Fin 64) (s : Fin 512)
    (h : Fin 1024) (σ : Fin 512) (hσ : val_main_v3 (F := Ideal) x1 (ix2 b s) = BitVec.ofNat 32 σ.val) :
    val_main_v5 (F := Ideal) x0 x1 (ix3 b s h) = x0 (ix3 b σ h) := by
  have hkeep : val_main_call2_v13 (F := Ideal) x1 (ix3 b s h) = 1#1 := by
    rw [val_main_call2_v13_apply]; exact keep_all x1 _
  have hv4 := wrapped_of_order x1 b s σ hσ
  rw [val_main_v5_apply, hkeep, select_one]
  unfold val_main_call2_v12
  refine (Cert.LibBatchGather.batch_take_apply (B := 64) (S := 512) (H := 1024) (by norm_num)
    Facts₀.gather_S64x512x1024_S64x512x1_S64x512x1024_2_1_0_0_1_2_111024_wf x0
    (val_main_call2_v4 (F := Ideal) x1) (ix3 b s h)).trans ?_
  refine congrArg x0 ?_
  funext a
  match a with
  | ⟨0, _⟩ => rfl
  | ⟨1, _⟩ =>
    refine Fin.ext ?_
    show min (val_main_call2_v4 (F := Ideal) x1 (ix3 b s 0)).toInt.toNat (512 - 1) = σ.val
    rw [hv4]
    exact clamp_word σ.val σ.isLt
  | ⟨2, _⟩ => rfl

/-- THE GATHERED VALUE at `(b, s, h)` is the input at `(b, perm ids b s, h)`: row `s` of the result is the input
    row the stable sort puts at position `s`. -/
theorem gathered_apply (x0 : FVec Ideal S64x512x1024 .f32) (x1 : IVec S64x512 32) (b : Fin 64) (s : Fin 512)
    (h : Fin 1024) : val_main_v5 (F := Ideal) x0 x1 (ix3 b s h) = x0 (ix3 b (perm x1 b s) h) := by
  have ho := order_apply x1 b s
  obtain ⟨σ, hσ⟩ : ∃ σ : Fin 512, perm x1 b s = σ := ⟨_, rfl⟩
  rw [hσ] at ho ⊢
  exact gathered_of_order x0 x1 b s h σ ho

end Cert.RefGather

end
-- ==== Proof.RefValue.lean ====
/-
  The reference's result is the compaction of its input.

  The reference sorts the keys (0 for a valid row, 1 for the others) stably along each batch row, gathers the input's rows
  in that order and multiplies by the flag "position below the number of valid rows". The stable sort lists the valid rows
  first, in their order, so below the count the gathered row is the valid row of that rank, and at or above it the product
  is zero: index by index this is the compaction.
-/
import proofs.«164245_j738734375311_2_alg».proof.Proof.RefRead
import proofs.«164245_j738734375311_2_alg».proof.Proof.RefKeep
import proofs.«164245_j738734375311_2_alg».proof.Proof.RefGather
import proofs.«164245_j738734375311_2_alg».proof.Proof.CompactSpec

noncomputable section

namespace Cert.ReferenceIdeal.Compaction

open Cert.ReferenceIdeal Cert.ReferenceIdeal.Gen Cert.ReferenceIdeal.Read Idealize.ShloMosaic Idealize.ShloMosaic.ValueIdx
open Cert.Compact Cert.RefKeep Cert.RefGather

/-- The reference's last stage, as a function of its two arguments, is the compaction. -/
theorem result_eq (x0 : FVec Idealize.ShloMosaic.Ideal S64x512x1024 .f32) (x1 : IVec S64x512 32) :
    val_main_v17 (F := Idealize.ShloMosaic.Ideal) x0 x1 = compact x0 x1 := by
  funext i
  obtain ⟨b, s, h, rfl⟩ : ∃ (b : Fin 64) (s : Fin 512) (h : Fin 1024), i = ix3 b s h := ⟨i 0, i 1, i 2, eq_ix3 i⟩
  rw [val_main_v17_apply]
  exact sorted_gather_row x1 b (fun k => x0 (ix3 b k h)) s _ _ (keep_apply x1 b s h) (gathered_apply x0 x1 b s h)

end Cert.ReferenceIdeal.Compaction

end
-- ==== Proof.lean ====
/-
  The certificate of a stream compaction: per batch row, the rows of the input whose flag word is 1 moved to the front in
  their order, the rest of the result zero.

  THE KERNEL writes, for a destination array dest[b,k] = (number of valid rows up to and including k) − 1 on valid rows and
  −1 on the others (a running count the host computes before the launch), the product of the 0/1 matrix
  [dest[b,k] = s] with the input, twice: once with the input itself and once with the difference of the input and its
  round trip through the narrow format, which at the extended reals is x − x. THE REFERENCE sorts the keys (0 valid,
  1 invalid) stably, gathers the input's rows in that order and zeroes the positions at or above the number of valid rows.
  Index by index both are the function `Cert.Compact.compact` of the two arguments (Proof/CompactSpec.lean):
    * the kernel side (Proof/KernelValue.lean) needs every entry of the input to be a real number — x − x is 0 only then —
      which is the precondition (Proof/FiniteInput.lean); the weight of row k at position s is 1 exactly when k is valid and
      has s valid rows before it (Proof/KernelDest.lean), so the sum picks the one valid row of rank s, or nothing;
    * the reference side (Proof/RefValue.lean) is the fact that a stable sort by a two-valued key lists the small-key
      elements first, in order (Proof/LibStableSortTwo.lean), read through the sort, the gather and the keep flag
      (Proof/RefGather.lean, Proof/RefKeep.lean).
  The three frames are the generated frame proofs (the reference's: its run with the result dropped); `preserves` is the
  one rewrite of the idealization, the round trip through the narrow format removed, by the rule's own lemma.
-/
import proofs.«164245_j738734375311_2_alg».proof.Defs
import proofs.«164245_j738734375311_2_alg».proof.Proof.Gen.Kernel
import proofs.«164245_j738734375311_2_alg».proof.Proof.Gen.Kernel.Skeleton
import proofs.«164245_j738734375311_2_alg».proof.Proof.Gen.Kernel.Launch
import proofs.«164245_j738734375311_2_alg».proof.Proof.Gen.Kernel.Points
import proofs.«164245_j738734375311_2_alg».proof.Proof.Gen.Kernel.Frame
import proofs.«164245_j738734375311_2_alg».proof.Proof.Gen.KernelIdeal
import proofs.«164245_j738734375311_2_alg».proof.Proof.Gen.KernelIdeal.Skeleton
import proofs.«164245_j738734375311_2_alg».proof.Proof.Gen.KernelIdeal.Launch
import proofs.«164245_j738734375311_2_alg».proof.Proof.Gen.KernelIdeal.Points
import proofs.«164245_j738734375311_2_alg».proof.Proof.Gen.KernelIdeal.Frame
import proofs.«164245_j738734375311_2_alg».proof.Proof.Gen.KernelIdeal.Value
import proofs.«164245_j738734375311_2_alg».proof.Proof.Gen.ReferenceIdeal
import proofs.«164245_j738734375311_2_alg».proof.Proof.Gen.Pre_finite_inputs
import proofs.«164245_j738734375311_2_alg».proof.Proof.RefRun
import proofs.«164245_j738734375311_2_alg».proof.Proof.RefRead
import proofs.«164245_j738734375311_2_alg».proof.Proof.FiniteInput
import proofs.«164245_j738734375311_2_alg».proof.Proof.KernelValue
import proofs.«164245_j738734375311_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's one rewrite: widening what was just narrowed is the identity at the extended reals, and the
    rounding through the narrow format at the word level. -/
theorem preserves : Cert.preserves_Kernel_KernelIdeal := IdealRules.truncf_extf.statement _ .f32 .bf16

/-- Both programs end with the compaction of the input by the flags. -/
theorem algebraic : Cert.algebraic_KernelIdeal_ReferenceIdeal := by
  intro m ρ m' ρ' hpre hagree
  have hreal : ∀ (c : Dev Cert.KernelIdeal.nD) i, ∃ r : ℝ,
      (m ((c.tc : Thread Cert.KernelIdeal.nD Cert.KernelIdeal.τ).loc Cert.KernelIdeal.main_arg0) : Cert.KernelIdeal.S64x512x1024.Idx → EReal) i = (r : EReal) :=
    fun c => Cert.FiniteInput.real_of_pre _ _ (hpre c)
  refine ⟨fun c => Cert.Compact.compact (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Compaction.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Compaction.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
